-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S10000 : Shape := ⟨1, ![10000]⟩
abbrev S1000000 : Shape := ⟨1, ![1000000]⟩
abbrev S128x128 : Shape := ⟨2, ![128, 128]⟩
abbrev S128 : Shape := ⟨1, ![128]⟩
abbrev S2x128 : Shape := ⟨2, ![2, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg2 : IVec S1000000 32) (main_v48 : IVec S_ 1) (main_v50 : IVec S1000000 1) : IVec S_ 1 :=
  let main_c_19 : IVec S_ 1 := constantI S_ 1 1#1
  let main_v51 : IVec S_ 1 := (fun x v => Host.reduce IntOp.andi x v reducesTo_S1000000_S_d0 h_S_) main_v50 main_c_19
  let main_v52 : IVec S_ 1 := andi main_v48 main_v51
  let main_c_20 : IVec S_ 32 := constantI S_ 32 10000#32
  let main_v53 : IVec S1000000 32 := broadcastInDim S1000000 ![] bcast_S_S1000000 main_c_20
  let main_v54 : IVec S1000000 1 := cmpi .slt main_arg2 main_v53
  let main_c_21 : IVec S_ 1 := constantI S_ 1 1#1
  let main_v55 : IVec S_ 1 := (fun x v => Host.reduce IntOp.andi x v reducesTo_S1000000_S_d0 h_S_) main_v54 main_c_21
  let main_v56 : IVec S_ 1 := andi main_v52 main_v55
  main_v56

def fn_part2 {F : FTy → Type} [FloatOps F] (main_arg2 : IVec S1000000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S1000000 32 := broadcastInDim S1000000 ![] bcast_S_S1000000 main_c_18
  let main_v50 : IVec S1000000 1 := cmpi .sge main_arg2 main_v49
  fn_part3 (F := F) main_arg2 main_v48 main_v50

def fn_part1 {F : FTy → Type} [FloatOps F] (main_arg2 : IVec S1000000 32) (main_arg5 : FVec F S2x128 .f32) (main_arg6 : FVec F S2x128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S1000000x128 .f32) (main_arg1 : FVec F S10000 .f32) (main_arg2 : IVec S1000000 32) (main_arg3 : FVec F S128x128 .f32) (main_arg4 : FVec F S128 .f32) (main_arg5 : FVec F S2x128 .f32) (main_arg6 : FVec F S2x128 .f32) (main_arg7 : FVec F S128x128 .f32) (main_arg8 : FVec F S128 .f32) (main_arg9 : FVec F S128x128 .f32) (main_arg10 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S1000000x128 : Shape := ⟨2, ![1000000, 128]⟩
abbrev S10000 : Shape := ⟨1, ![10000]⟩
abbrev S1000000 : Shape := ⟨1, ![1000000]⟩
abbrev S128x128 : Shape := ⟨2, ![128, 128]⟩
abbrev S128 : Shape := ⟨1, ![128]⟩
abbrev S2x128 : Shape := ⟨2, ![2, 128]⟩
abbrev S_ : Shape := ⟨0, ![]⟩
abbrev S1000000x1 : Shape := ⟨2, ![1000000, 1]⟩
abbrev S1x128 : Shape := ⟨2, ![1, 128]⟩
abbrev S8000x128 : Shape := ⟨2, ![8000, 128]⟩
abbrev S8000x1 : Shape := ⟨2, ![8000, 1]⟩
abbrev S8000 : Shape := ⟨1, ![8000]⟩
abbrev S1000000x2 : Shape := ⟨2, ![1000000, 2]⟩
abbrev S8000x2 : Shape := ⟨2, ![8000, 2]⟩

abbrev nBuf : Space → Nat
  | .hbm => 43
  | .vmem => 20
  | .smem => 0
  | _ => 0

abbrev bufTy : (tb : Table) → Fin (tcTables nBuf tb) → BufTy
  | .hbm, ⟨0, _⟩ => ⟨S1000000x128, .f32⟩
  | .hbm, ⟨1, _⟩ => ⟨S10000, .f32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000, .f32⟩
  | .hbm, ⟨20, _⟩ => ⟨S1000000x1, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1000000x1, .f32⟩
  | .hbm, ⟨25, _⟩ => ⟨S1000000, .f32⟩
  | .hbm, ⟨26, _⟩ => ⟨S_, .f32⟩
  | .hbm, ⟨27, _⟩ => ⟨S10000, .f32⟩
  | .hbm, ⟨28, _⟩ => ⟨S1000000x1, .i32⟩
  | .hbm, ⟨29, _⟩ => ⟨S10000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S1000000, .f32⟩
  | .hbm, ⟨40, _⟩ => ⟨S1000000x1, .f32⟩
  | .hbm, ⟨41, _⟩ => ⟨S1000000x2, .f32⟩
  | .hbm, ⟨42, _⟩ => ⟨S1000000x128, .f32⟩
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S128x128, .f32⟩
  | .local _ .vmem, ⟨5, _⟩ => ⟨S1x128, .f32⟩
  | .local _ .vmem, ⟨6, _⟩ => ⟨S2x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S8000x2, .f32⟩
  | .local _ .vmem, ⟨12, _⟩ => ⟨S8000x2, .f32⟩
  | .local _ .vmem, ⟨13, _⟩ => ⟨S2x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S8000x128, .f32⟩
  | .local _ .vmem, ⟨19, _⟩ => ⟨S8000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S2x128_S2x128_0_0 : ∀ a, (![0, 0] : Fin 2 → Nat) a + S2x128.size a ≤ S2x128.size a
  h_S2x128 : 0 < S2x128.numel
  slices_S2x128_o0_0_S1x128 : S2x128.Slices ![0, 0] S1x128
  slices_S2x128_o1_0_S1x128 : S2x128.Slices ![1, 0] S1x128
  broadcasts_S8000x1_S8000x128 : S8000x1.Broadcasts S8000x128
  reduces_S8000x128_S8000 : S8000x128.Reduces [1] S8000
  shapeCasts_S8000_S8000x1 : S8000.ShapeCasts S8000x1
  shapeCasts_S1000000x1_S1000000 : S1000000x1.ShapeCasts S1000000
  bcast_S_S10000 : S_.BroadcastsInDim S10000 (![] : Fin 0 → Fin S10000.rank)
  concatenates_S1000000x1_S1000000x1_S1000000x2_d1 : Shape.Concatenates [S1000000x1, S1000000x1] S1000000x2 1
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  slices_S8000x2_o0_0_S8000x1 : S8000x2.Slices ![0, 0] S8000x1
  slices_S8000x2_o0_1_S8000x1 : S8000x2.Slices ![0, 1] S8000x1
  gather_S10000_S1000000x1_S1000000_n_0_n_n_0_1_1_wf : GatherDims.WF S10000 S1000000x1 S1000000 [] [0] [] [0] [] 1 ![1]
  dot_S8000x128_S128x128_S8000x128_1_0_0_1_n_n_wf : DotDims.WF S8000x128 S128x128 S8000x128 [1] [0] [0] [1] [] []
  scatter_S10000_S1000000x1_S1000000_n_0_0_1_wf : ScatterDims.WF S10000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .f32 = 32 ∨ (Rect.block (s := S1000000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S1000000x1.size a
  hwx0_5 : ∀ i : grid0.Coords, EltTy.bits .f32 = 32 ∨ (Rect.block (s := S1000000x1) S8000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x2.size a ≤ S1000000x2.size a
  hwx1_1 : ∀ i : grid1.Coords, EltTy.bits .f32 = 32 ∨ (Rect.block (s := S1000000x2) S8000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x128.size a ≤ S1000000x128.size a
  hwx1_7 : ∀ i : grid1.Coords, EltTy.bits .f32 = 32 ∨ (Rect.block (s := S1000000x128) S8000x128.size (cc1_transform_7 i) (hinb1_7 i)).WholeWords (EltTy.packing .f32)

variable [Facts₀]

def gather_S10000_S1000000x1_S1000000_n_0_n_n_0_1_1 : GatherDims S10000 S1000000x1 S1000000 where
  offsetDims := []
  collapsedSliceDims := [0]
  operandBatchingDims := []
  startIndicesBatchingDims := []
  startIndexMap := [0]
  indexVectorDim := 1
  sliceSizes := ![1]
  wf := gather_S10000_S1000000x1_S1000000_n_0_n_n_0_1_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S10000_S1000000x1_S1000000_n_0_0_1 : ScatterDims S10000 S1000000x1 S1000000 where
  updateWindowDims := []
  insertedWindowDims := [0]
  scatterDimsToOperandDims := [0]
  indexVectorDim := 1
  wf := scatter_S10000_S1000000x1_S1000000_n_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S8000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S8000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S10000 : Shape := ⟨1, ![10000]⟩
abbrev S1000000 : Shape := ⟨1, ![1000000]⟩
abbrev S128x128 : Shape := ⟨2, ![128, 128]⟩
abbrev S128 : Shape := ⟨1, ![128]⟩
abbrev S2x128 : Shape := ⟨2, ![2, 128]⟩
abbrev S10000x1 : Shape := ⟨2, ![10000, 1]⟩
abbrev S10000x2 : Shape := ⟨2, ![10000, 2]⟩
abbrev S_ : Shape := ⟨0, ![]⟩
abbrev S1x128 : Shape := ⟨2, ![1, 128]⟩
abbrev S10000x128 : Shape := ⟨2, ![10000, 128]⟩
abbrev S1000000x1 : Shape := ⟨2, ![1000000, 1]⟩

abbrev nBuf : Space → Nat
  | .hbm => 112
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S10000, .f32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S10000, .f32⟩
  | .hbm, ⟨12, _⟩ => ⟨S10000x1, .f32⟩
  | .hbm, ⟨13, _⟩ => ⟨S10000x1, .f32⟩
  | .hbm, ⟨14, _⟩ => ⟨S10000x2, .f32⟩
  | .hbm, ⟨15, _⟩ => ⟨S_, .f32⟩
  | .hbm, ⟨16, _⟩ => ⟨S10000x2, .f32⟩
  | .hbm, ⟨17, _⟩ => ⟨S10000x2, .f32⟩
  | .hbm, ⟨18, _⟩ => ⟨S_, .f32⟩
  | .hbm, ⟨19, _⟩ => ⟨S10000x2, .f32⟩
  | .hbm, ⟨20, _⟩ => ⟨S10000x2, .f32⟩
  | .hbm, ⟨21, _⟩ => ⟨S1000000x128, .f32⟩
  | .hbm, ⟨22, _⟩ => ⟨S1x128, .f32⟩
  | .hbm, ⟨23, _⟩ => ⟨S1000000x128, .f32⟩
  | .hbm, ⟨24, _⟩ => ⟨S1000000x128, .f32⟩
  | .hbm, ⟨25, _⟩ => ⟨S10000x2, .f32⟩
  | .hbm, ⟨26, _⟩ => ⟨S10000x128, .f32⟩
  | .hbm, ⟨27, _⟩ => ⟨S10000x128, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x128, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x128, .f32⟩
  | .hbm, ⟨46, _⟩ => ⟨S1000000x128, .f32⟩
  | .hbm, ⟨47, _⟩ => ⟨S_, .f32⟩
  | .hbm, ⟨48, _⟩ => ⟨S1000000, .f32⟩
  | .hbm, ⟨49, _⟩ => ⟨S1000000x1, .f32⟩
  | .hbm, ⟨50, _⟩ => ⟨S_, .f32⟩
  | .hbm, ⟨51, _⟩ => ⟨S1000000x1, .f32⟩
  | .hbm, ⟨52, _⟩ => ⟨S1000000x1, .f32⟩
  | .hbm, ⟨53, _⟩ => ⟨S_, .f32⟩
  | .hbm, ⟨54, _⟩ => ⟨S1000000x1, .f32⟩
  | .hbm, ⟨55, _⟩ => ⟨S1000000x1, .f32⟩
  | .hbm, ⟨56, _⟩ => ⟨S1000000x1, .f32⟩
  | .hbm, ⟨57, _⟩ => ⟨S1000000x1, .f32⟩
  | .hbm, ⟨58, _⟩ => ⟨S1000000x1, .i1⟩
  | .hbm, ⟨59, _⟩ => ⟨S1000000x1, .f32⟩
  | .hbm, ⟨60, _⟩ => ⟨S1000000x1, .f32⟩
  | .hbm, ⟨61, _⟩ => ⟨S1000000x1, .f32⟩
  | .hbm, ⟨62, _⟩ => ⟨S1000000x1, .f32⟩
  | .hbm, ⟨63, _⟩ => ⟨S1000000x1, .f32⟩
  | .hbm, ⟨64, _⟩ => ⟨S1000000x1, .f32⟩
  | .hbm, ⟨65, _⟩ => ⟨S1000000x1, .f32⟩
  | .hbm, ⟨66, _⟩ => ⟨S1000000x1, .f32⟩
  | .hbm, ⟨67, _⟩ => ⟨S_, .f32⟩
  | .hbm, ⟨68, _⟩ => ⟨S10000x1, .f32⟩
  | .hbm, ⟨69, _⟩ => ⟨S1000000x1, .i32⟩
  | .hbm, ⟨70, _⟩ => ⟨S10000x1, .f32⟩
  | .hbm, ⟨71, _⟩ => ⟨S_, .i32⟩
  | .hbm, ⟨72, _⟩ => ⟨S1000000, .i32⟩
  | .hbm, ⟨73, _⟩ => ⟨S1000000, .i1⟩
  | .hbm, ⟨74, _⟩ => ⟨S_, .i32⟩
  | .hbm, ⟨75, _⟩ => ⟨S1000000, .i32⟩
  | .hbm, ⟨76, _⟩ => ⟨S1000000, .i32⟩
  | .hbm, ⟨77, _⟩ => ⟨S1000000, .i32⟩
  | .hbm, ⟨78, _⟩ => ⟨S1000000x1, .i32⟩
  | .hbm, ⟨79, _⟩ => ⟨S1000000x1, .f32⟩
  | .hbm, ⟨80, _⟩ => ⟨S1000000x128, .f32⟩
  | .hbm, ⟨81, _⟩ => ⟨S1000000x128, .f32⟩
  | .hbm, ⟨82, _⟩ => ⟨S1000000x128, .f32⟩
  | .hbm, ⟨83, _⟩ => ⟨S1000000x128, .f32⟩
  | .hbm, ⟨84, _⟩ => ⟨S1000000x128, .f32⟩
  | .hbm, ⟨85, _⟩ => ⟨S1x128, .f32⟩
  | .hbm, ⟨86, _⟩ => ⟨S1000000x128, .f32⟩
  | .hbm, ⟨87, _⟩ => ⟨S1000000x128, .f32⟩
  | .hbm, ⟨88, _⟩ => ⟨S1000000x128, .f32⟩
  | .hbm, ⟨89, _⟩ => ⟨S1000000x128, .f32⟩
  | .hbm, ⟨90, _⟩ => ⟨S_, .f32⟩
  | .hbm, ⟨91, _⟩ => ⟨S1000000x128, .f32⟩
  | .hbm, ⟨92, _⟩ => ⟨S1000000x128, .f32⟩
  | .hbm, ⟨93, _⟩ => ⟨S_, .f32⟩
  | .hbm, ⟨94, _⟩ => ⟨S1000000x128, .f32⟩
  | .hbm, ⟨95, _⟩ => ⟨S1000000x128, .f32⟩
  | .hbm, ⟨96, _⟩ => ⟨S1000000x128, .f32⟩
  | .hbm, ⟨97, _⟩ => ⟨S1000000x128, .f32⟩
  | .hbm, ⟨98, _⟩ => ⟨S1x128, .f32⟩
  | .hbm, ⟨99, _⟩ => ⟨S1000000x128, .f32⟩
  | .hbm, ⟨100, _⟩ => ⟨S1000000x128, .f32⟩
  | .hbm, ⟨101, _⟩ => ⟨S1000000x128, .f32⟩
  | .hbm, ⟨102, _⟩ => ⟨S1000000x128, .f32⟩
  | .hbm, ⟨103, _⟩ => ⟨S_, .f32⟩
  | .hbm, ⟨104, _⟩ => ⟨S1000000x128, .f32⟩
  | .hbm, ⟨105, _⟩ => ⟨S1000000x128, .f32⟩
  | .hbm, ⟨106, _⟩ => ⟨S_, .f32⟩
  | .hbm, ⟨107, _⟩ => ⟨S1000000x128, .f32⟩
  | .hbm, ⟨108, _⟩ => ⟨S1000000x128, .f32⟩
  | .hbm, ⟨109, _⟩ => ⟨S1000000x128, .f32⟩
  | .hbm, ⟨110, _⟩ => ⟨S1000000x128, .f32⟩
  | .hbm, ⟨111, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_6 : Ref sig .tc := ⟨.hbm, 71, rfl⟩
abbrev main_v37 : Ref sig .tc := ⟨.hbm, 72, rfl⟩
abbrev main_v38 : Ref sig .tc := ⟨.hbm, 73, rfl⟩
abbrev main_c_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call3_v0 : Ref sig .tc := ⟨.hbm, 101, rfl⟩
abbrev main_call3_v1 : Ref sig .tc := ⟨.hbm, 102, rfl⟩
abbrev main_call3_cst : Ref sig .tc := ⟨.hbm, 103, rfl⟩
abbrev main_call3_v2 : Ref sig .tc := ⟨.hbm, 104, rfl⟩
abbrev main_call3_v3 : Ref sig .tc := ⟨.hbm, 105, rfl⟩
abbrev main_call3_cst_0 : Ref sig .tc := ⟨.hbm, 106, rfl⟩
abbrev main_call3_v4 : Ref sig .tc := ⟨.hbm, 107, rfl⟩
abbrev main_call3_v5 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  concatenates_S10000x1_S10000x1_S10000x2_d1 : Shape.Concatenates [S10000x1, S10000x1] S10000x2 1
  bcast_S_S10000x2 : S_.BroadcastsInDim S10000x2 (![] : Fin 0 → Fin S10000x2.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S_S1000000x1 : S_.BroadcastsInDim S1000000x1 (![] : Fin 0 → Fin S1000000x1.rank)
  bcast_S_S10000x1 : S_.BroadcastsInDim S10000x1 (![] : Fin 0 → Fin S10000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  dot_S1000000x128_S128x128_S1000000x128_1_0_0_1_n_n_wf : DotDims.WF S1000000x128 S128x128 S1000000x128 [1] [0] [0] [1] [] []
  dot_S10000x2_S2x128_S10000x128_1_0_0_1_n_n_wf : DotDims.WF S10000x2 S2x128 S10000x128 [1] [0] [0] [1] [] []
  gather_S10000x128_S1000000x1_S1000000x128_1_0_n_n_0_1_1128_wf : GatherDims.WF S10000x128 S1000000x1 S1000000x128 [1] [0] [] [0] [] 1 ![1, 128]
  scatter_S10000x1_S1000000x1_S1000000x1_1_0_0_1_wf : ScatterDims.WF S10000x1 S1000000x1 S1000000x1 [1] [0] [0] 1
  gather_S10000x1_S1000000x1_S1000000x1_1_0_n_n_0_1_11_wf : GatherDims.WF S10000x1 S1000000x1 S1000000x1 [1] [0] [] [0] [] 1 ![1, 1]

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S10000x2_S2x128_S10000x128_1_0_0_1_n_n : DotDims S10000x2 S2x128 S10000x128 where
  lhsContracting := [1]
  rhsContracting := [0]
  lhsNonContracting := [0]
  rhsNonContracting := [1]
  lhsBatch := []
  rhsBatch := []
  wf := dot_S10000x2_S2x128_S10000x128_1_0_0_1_n_n_wf
def gather_S10000x128_S1000000x1_S1000000x128_1_0_n_n_0_1_1128 : GatherDims S10000x128 S1000000x1 S1000000x128 where
  offsetDims := [1]
  collapsedSliceDims := [0]
  operandBatchingDims := []
  startIndicesBatchingDims := []
  startIndexMap := [0]
  indexVectorDim := 1
  sliceSizes := ![1, 128]
  wf := gather_S10000x128_S1000000x1_S1000000x128_1_0_n_n_0_1_1128_wf
def scatter_S10000x1_S1000000x1_S1000000x1_1_0_0_1 : ScatterDims S10000x1 S1000000x1 S1000000x1 where
  updateWindowDims := [1]
  insertedWindowDims := [0]
  scatterDimsToOperandDims := [0]
  indexVectorDim := 1
  wf := scatter_S10000x1_S1000000x1_S1000000x1_1_0_0_1_wf
def gather_S10000x1_S1000000x1_S1000000x1_1_0_n_n_0_1_11 : GatherDims S10000x1 S1000000x1 S1000000x1 where
  offsetDims := [1]
  collapsedSliceDims := [0]
  operandBatchingDims := []
  startIndicesBatchingDims := []
  startIndexMap := [0]
  indexVectorDim := 1
  sliceSizes := ![1, 1]
  wf := gather_S10000x1_S1000000x1_S1000000x1_1_0_n_n_0_1_11_wf

class Facts : Prop extends Facts₀ where

variable [Facts]
-- ==== Proof.PreFacts.lean ====
/-
  The precondition `Cert.Pre_finite_inputs.fn`, read back. The printed predicate is a conjunction of one-bit words:
  for each float array `all (|x| < +∞)` — the absolute value compared, ordered-less-than, against the f32 pattern
  0x7F800000 broadcast from a scalar, then reduced over every axis by `and` from the constant 1 — and for the integer
  array `all (0 ≤ x)` and `all (x < 10000)`, signed comparisons against broadcast constants reduced the same way.
  When the whole word is 1 every conjunct is 1, every element of every reduced array is 1, and so: each float
  element, an extended real whose absolute value `max x (-x)` lies below `⊤`, is a real; each integer element,
  read signed, lies in [0, 10000).
-/
import proofs.«107950_j44057774522738_2_alg».proof.Pre_finite_inputs
import Idealize.ShloMosaic.Lib.ReduceAll
import Idealize.ShloMosaic.Lib.IdealHost
import Idealize.ShloMosaic.PureOps.Ideal.Laws

noncomputable section

namespace Cert.PreFacts

open Idealize.ShloMosaic Idealize.ShloMosaic.ValueIdx Cert.Pre_finite_inputs

/-- The rank-0 shape has one index. -/
instance subsingleton_S_ : Subsingleton S_.Idx := ⟨fun a b => funext fun d => d.elim0⟩

/-- The f32 pattern 0x7F800000 — exponent all ones, fraction zero, sign clear — denotes `⊤`. -/
theorem ofBits_inf_f32 : Ideal.ofBits .f32 0x7F800000#32 = (⊤ : EReal) := by
  simp [Ideal.ofBits, Ideal.ieee]

/-- An extended real whose absolute value `max x (-x)` is below `⊤` is a real: `⊤` has `max ⊤ ⊥ = ⊤` and `⊥` has
    `max ⊥ ⊤ = ⊤`, neither below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One element of `|x| < +∞`: the ordered comparison of the absolute value with the pattern of `+∞` being 1 makes
    the element a real. -/
theorem real_of_olt_inf (x : Ideal .f32)
    (h : FloatOps.cmpf .olt (FloatOps.hostAbsf x) (Ideal.ofBits .f32 0x7F800000#32) = 1#1) : ∃ r : ℝ, x = (r : EReal) := by
  refine real_of_abs_lt_top x ?_
  rw [ofBits_inf_f32] at h
  have h' : Ideal.cmp .olt (max x (-x)) (⊤ : EReal) = 1#1 := h
  unfold Ideal.cmp at h'
  by_contra hn
  simp [hn] at h'

/-- `all (|x| < +∞)` over an array of any shape: when the reduction by `and` over every axis, into the one rank-0
    index, is 1, every entry of the array is a real. -/
theorem all_finite {S : Shape} {axes : List (Fin S.rank)} (hb : S_.BroadcastsInDim S (![] : Fin 0 → Fin S.rank))
    (hr : S.ReducesTo axes S_) (hu : 0 < S_.numel) (x : FVec Ideal S .f32) (j : S_.Idx)
    (h : Host.reduce IntOp.andi
          (cmpf .olt (Host.absf x) (broadcastInDim S ![] hb (constant (F := Ideal) S_ .f32 0x7F800000#32)))
          (constantI S_ 1 1#1) hr hu j = 1#1) :
    ∀ i, ∃ r : ℝ, x i = (r : EReal) := by
  intro i
  have e := Host.reduce_andi_all _ _ hr hu j h i
  rw [cmpf_apply, broadcastInDim_scalar_apply] at e
  exact real_of_olt_inf (x i) e

/-- `all (c ≤ x)`, signed, over an integer array of any shape against a broadcast constant. -/
theorem all_sge {S : Shape} {axes : List (Fin S.rank)} (hb : S_.BroadcastsInDim S (![] : Fin 0 → Fin S.rank))
    (hr : S.ReducesTo axes S_) (hu : 0 < S_.numel) (x : IVec S 32) (c : BitVec 32) (j : S_.Idx)
    (h : Host.reduce IntOp.andi (cmpi .sge x (broadcastInDim S ![] hb (constantI S_ 32 c)))
          (constantI S_ 1 1#1) hr hu j = 1#1) :
    ∀ i, c.toInt ≤ (x i).toInt := by
  intro i
  have e := Host.reduce_andi_all _ _ hr hu j h i
  have e' : IntOp.cmpi .sge (x i) (broadcastInDim S ![] hb (constantI S_ 32 c) i) = 1#1 := e
  rw [broadcastInDim_scalar_apply] at e'
  exact IntOp.cmpi_sge.1 e'

/-- `all (x < c)`, signed, over an integer array of any shape against a broadcast constant. -/
theorem all_slt {S : Shape} {axes : List (Fin S.rank)} (hb : S_.BroadcastsInDim S (![] : Fin 0 → Fin S.rank))
    (hr : S.ReducesTo axes S_) (hu : 0 < S_.numel) (x : IVec S 32) (c : BitVec 32) (j : S_.Idx)
    (h : Host.reduce IntOp.andi (cmpi .slt x (broadcastInDim S ![] hb (constantI S_ 32 c)))
          (constantI S_ 1 1#1) hr hu j = 1#1) :
    ∀ i, (x i).toInt < c.toInt := by
  intro i
  have e := Host.reduce_andi_all _ _ hr hu j h i
  have e' : IntOp.cmpi .slt (x i) (broadcastInDim S ![] hb (constantI S_ 32 c) i) = 1#1 := e
  rw [broadcastInDim_scalar_apply] at e'
  exact IntOp.cmpi_slt.1 e'

/-- The `and` of two one-bit arrays, read at an index, is 1 exactly when both operands are 1 there. -/
theorem andi_ix {S : Shape} (a b : IVec S 1) (j : S.Idx) : andi a b j = 1#1 ↔ a j = 1#1 ∧ b j = 1#1 :=
  IntOp.andi_eq_one

/-- The precondition decoded. When the printed predicate is the word 1, the five float arrays the value law reads
    (arguments 0, 1, 3, 4 and 5) hold reals only, and every entry of the integer array (argument 2), read signed,
    lies in [0, 10000). The predicate's other conjuncts (arguments 6 to 10 finite) are split off and not used. -/
theorem facts_of_pre [Cert.Pre_finite_inputs.Facts]
    (x0 : FVec Ideal S1000000x128 .f32) (x1 : FVec Ideal S10000 .f32) (x2 : IVec S1000000 32)
    (x3 : FVec Ideal S128x128 .f32) (x4 : FVec Ideal S128 .f32) (x5 : FVec Ideal S2x128 .f32)
    (x6 : FVec Ideal S2x128 .f32) (x7 : FVec Ideal S128x128 .f32) (x8 : FVec Ideal S128 .f32)
    (x9 : FVec Ideal S128x128 .f32) (x10 : FVec Ideal S128 .f32)
    (h : Cert.Pre_finite_inputs.fn (F := Ideal) x0 x1 x2 x3 x4 x5 x6 x7 x8 x9 x10 = (fun _ => 1#1)) :
    (∀ i, ∃ r : ℝ, x0 i = (r : EReal)) ∧ (∀ i, ∃ r : ℝ, x1 i = (r : EReal)) ∧
    (∀ i, ∃ r : ℝ, x3 i = (r : EReal)) ∧ (∀ i, ∃ r : ℝ, x4 i = (r : EReal)) ∧
    (∀ i, ∃ r : ℝ, x5 i = (r : EReal)) ∧ (∀ i, 0 ≤ (x2 i).toInt ∧ (x2 i).toInt < 10000) := by
  have e := congrFun h ix0
  dsimp only [Cert.Pre_finite_inputs.fn, Cert.Pre_finite_inputs.fn_part1, Cert.Pre_finite_inputs.fn_part2,
    Cert.Pre_finite_inputs.fn_part3] at e
  -- the word is ((((((((((a0 ∧ a1) ∧ a3) ∧ a4) ∧ a5) ∧ a6) ∧ a7) ∧ a8) ∧ a9) ∧ a10) ∧ 0 ≤ a2) ∧ a2 < 10000
  obtain ⟨e, hlt⟩ := (andi_ix _ _ _).1 e
  obtain ⟨e, hge⟩ := (andi_ix _ _ _).1 e
  obtain ⟨e, -⟩ := (andi_ix _ _ _).1 e
  obtain ⟨e, -⟩ := (andi_ix _ _ _).1 e
  obtain ⟨e, -⟩ := (andi_ix _ _ _).1 e
  obtain ⟨e, -⟩ := (andi_ix _ _ _).1 e
  obtain ⟨e, -⟩ := (andi_ix _ _ _).1 e
  obtain ⟨e, h5⟩ := (andi_ix _ _ _).1 e
  obtain ⟨e, h4⟩ := (andi_ix _ _ _).1 e
  obtain ⟨e, h3⟩ := (andi_ix _ _ _).1 e
  obtain ⟨h0, h1⟩ := (andi_ix _ _ _).1 e
  have z0 : (0#32 : BitVec 32).toInt = 0 := by decide
  have z1 : (10000#32 : BitVec 32).toInt = 10000 := by decide
  refine ⟨all_finite _ _ _ x0 ix0 h0, all_finite _ _ _ x1 ix0 h1, all_finite _ _ _ x3 ix0 h3,
    all_finite _ _ _ x4 ix0 h4, all_finite _ _ _ x5 ix0 h5, fun i => ⟨?_, ?_⟩⟩
  · have := all_sge _ _ _ x2 0#32 ix0 hge i
    rwa [z0] at this
  · have := all_slt _ _ _ x2 10000#32 ix0 hlt i
    rwa [z1] at this

end Cert.PreFacts

end
-- ==== Proof.KRun.lean ====
/-
  The idealized kernel program's run with its RESULT named: every weakly fair execution of @main terminates, nothing
  faulting, the arguments unchanged, and the result array holds what the second region's write-backs leave — the fold
  of the boundary contents (host stretch, region, host stretch, region) from the launch memory, read at the result's
  buffer.
-/
import proofs.«107950_j44057774522738_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer at the last boundary's contents. -/
theorem run_value : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.KRun

end
-- ==== Proof.KHostA.lean ====
/-
  What the first region finds in its operand arrays, as host functions of the launch memory: the node features, Wq and
  Wk as launched; bq recast to one row; and every node's charge — the charge array gathered at the node's batch word
  (a negative word first shifted by the number of graphs), laid out as one column.
-/
import proofs.«107950_j44057774522738_2_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.ShloMosaic.Tactic Idealize.SL.Sem Idealize.ShloMosaic.StableHlo

/-- The gather's start indices: the batch words, a negative one shifted by the number of graphs, as one column. -/
def idxOf (b : IVec S1000000 32) : IVec S1000000x1 32 :=
  broadcastInDim S1000000x1 ![0] bcast_S1000000_S1000000x1_0
    (select (cmpi .slt b (broadcastInDim S1000000 ![] bcast_S_S1000000 (constantI S_ 32 0#32)))
      (addi b (broadcastInDim S1000000 ![] bcast_S_S1000000 (constantI S_ 32 10000#32))) b)

/-- Every node's charge, as one column. -/
def chargeNode (charge : FVec Ideal S10000 .f32) (b : IVec S1000000 32) : FVec Ideal S1000000x1 .f32 :=
  broadcastInDim S1000000x1 ![0] bcast_S1000000_S1000000x1_0
    (Host.gather gather_S10000_S1000000x1_S1000000_n_0_n_n_0_1_1 charge (idxOf b))

/-- A length-128 vector as one row. -/
def rowOf (v : FVec Ideal S128 .f32) : FVec Ideal S1x128 .f32 := shapeCast S1x128 v shapeCasts_S128_S1x128

variable (m : (ℓ : Loc nD τ sig) → Buf (Elt Ideal) ℓ) (ρ : Dev nD → PrngReg)

theorem V1_arg0 (c : Dev nD) : V1 m ρ c main_arg0 = m ((c.tc : Thread nD τ).loc main_arg0) := by
  show StableHlo.after hostOps0 (W0 m ρ c) (Proc.devRef .tc main_arg0) = _
  after_results

theorem V1_arg3 (c : Dev nD) : V1 m ρ c main_arg3 = m ((c.tc : Thread nD τ).loc main_arg3) := by
  show StableHlo.after hostOps0 (W0 m ρ c) (Proc.devRef .tc main_arg3) = _
  after_results

theorem V1_arg5 (c : Dev nD) : V1 m ρ c main_arg5 = m ((c.tc : Thread nD τ).loc main_arg5) := by
  show StableHlo.after hostOps0 (W0 m ρ c) (Proc.devRef .tc main_arg5) = _
  after_results

theorem V1_arg2 (c : Dev nD) : V1 m ρ c main_arg2 = m ((c.tc : Thread nD τ).loc main_arg2) := by
  show StableHlo.after hostOps0 (W0 m ρ c) (Proc.devRef .tc main_arg2) = _
  after_results

theorem V1_v7 (c : Dev nD) : V1 m ρ c main_v7
    = chargeNode (m ((c.tc : Thread nD τ).loc main_arg1)) (m ((c.tc : Thread nD τ).loc main_arg2)) := by
  show StableHlo.after hostOps0 (W0 m ρ c) (Proc.devRef .tc main_v7) = _
  after_results; rfl

theorem V1_v8 (c : Dev nD) : V1 m ρ c main_v8 = rowOf (m ((c.tc : Thread nD τ).loc main_arg4)) := by
  show StableHlo.after hostOps0 (W0 m ρ c) (Proc.devRef .tc main_v8) = _
  after_results; rfl

theorem V1_v9 (c : Dev nD) : V1 m ρ c main_v9 = rowOf (m ((c.tc : Thread nD τ).loc main_arg8)) := by
  show StableHlo.after hostOps0 (W0 m ρ c) (Proc.devRef .tc main_v9) = _
  after_results; rfl

theorem V1_v10 (c : Dev nD) : V1 m ρ c main_v10 = rowOf (m ((c.tc : Thread nD τ).loc main_arg10)) := by
  show StableHlo.after hostOps0 (W0 m ρ c) (Proc.devRef .tc main_v10) = _
  after_results; rfl

theorem V1_arg6 (c : Dev nD) : V1 m ρ c main_arg6 = m ((c.tc : Thread nD τ).loc main_arg6) := by
  show StableHlo.after hostOps0 (W0 m ρ c) (Proc.devRef .tc main_arg6) = _
  after_results

theorem V1_arg7 (c : Dev nD) : V1 m ρ c main_arg7 = m ((c.tc : Thread nD τ).loc main_arg7) := by
  show StableHlo.after hostOps0 (W0 m ρ c) (Proc.devRef .tc main_arg7) = _
  after_results

theorem V1_arg9 (c : Dev nD) : V1 m ρ c main_arg9 = m ((c.tc : Thread nD τ).loc main_arg9) := by
  show StableHlo.after hostOps0 (W0 m ρ c) (Proc.devRef .tc main_arg9) = _
  after_results

end Cert.KernelIdeal.KHost

end
-- ==== Proof.KHostB.lean ====
/-
  What the second region finds in its operand arrays, as host functions of the launch memory and of the first region's
  result: the node features and the weights as launched, the two biases recast to one row each, and the packed pair
  [charge, r] per node — r the node's attention logit divided by its graph's total (the logits scatter-added by batch
  word into zeros, gathered back at the node's batch word).
-/
import proofs.«107950_j44057774522738_2_alg».proof.Proof.Gen.KernelIdeal.Frame
import Idealize.ShloMosaic.Lib.StableHlo.Run
import Idealize.ShloMosaic.PureOps.Ideal
import proofs.«107950_j44057774522738_2_alg».proof.Proof.KHostA

set_option maxRecDepth 16384

noncomputable section

namespace Cert.KernelIdeal.KHost

open Cert.KernelIdeal Cert.KernelIdeal.Gen
open Idealize.ShloMosaic Idealize.ShloMosaic.TcCoe Idealize.ShloMosaic.Tactic Idealize.SL.Sem Idealize.ShloMosaic.StableHlo

/-- The packed pair per node: its charge, and its logit over its graph's total. -/
def pairOf (cn attn : FVec Ideal S1000000x1 .f32) (b : IVec S1000000 32) : FVec Ideal S1000000x2 .f32 :=
  concatenate S1000000x2 1
    [⟨S1000000x1, cn⟩,
     ⟨S1000000x1, broadcastInDim S1000000x1 ![0] bcast_S1000000_S1000000x1_0
        (Host.divf (shapeCast S1000000 attn shapeCasts_S1000000x1_S1000000)
          (Host.gather gather_S10000_S1000000x1_S1000000_n_0_n_n_0_1_1
            (Host.scatterAdd scatter_S10000_S1000000x1_S1000000_n_0_0_1
              (broadcastInDim S10000 ![] bcast_S_S10000 (constant S_ .f32 0x00000000#32))
              (broadcastInDim S1000000x1 ![0] bcast_S1000000_S1000000x1_0 b)
              (shapeCast S1000000 attn shapeCasts_S1000000x1_S1000000))
            (idxOf b)))⟩]
    concatenates_S1000000x1_S1000000x1_S1000000x2_d1

variable (m : (ℓ : Loc nD τ sig) → Buf (Elt Ideal) ℓ) (ρ : Dev nD → PrngReg)

/-! ## Between the regions: what the first region leaves -/

theorem W2_v7 (c : Dev nD) : W2 m ρ c (Proc.devRef .tc main_v7) = V1 m ρ c main_v7 :=
  (W2_arr m ρ c 1).trans (((dat0 (V1 m ρ) c).arrAt_in 1 rfl _).trans (A_eq0 (V1 m ρ) c 1))
theorem W2_arg0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))
theorem W2_v11 (c : Dev nD) : W2 m ρ c (Proc.devRef .tc main_v11) = (dat0 (V1 m ρ) c).arrAt 5 cfg0.N :=
  W2_arr m ρ c 5
theorem W2_arg2 (c : Dev nD) : W2 m ρ c (Proc.devRef .tc main_arg2) = V1 m ρ c main_arg2 := W2_of_ne m ρ c main_arg2 (by decide)
theorem W2_arg6 (c : Dev nD) : W2 m ρ c (Proc.devRef .tc main_arg6) = V1 m ρ c main_arg6 := W2_of_ne m ρ c main_arg6 (by decide)
theorem W2_arg7 (c : Dev nD) : W2 m ρ c (Proc.devRef .tc main_arg7) = V1 m ρ c main_arg7 := W2_of_ne m ρ c main_arg7 (by decide)
theorem W2_arg9 (c : Dev nD) : W2 m ρ c (Proc.devRef .tc main_arg9) = V1 m ρ c main_arg9 := W2_of_ne m ρ c main_arg9 (by decide)
theorem W2_v9 (c : Dev nD) : W2 m ρ c (Proc.devRef .tc main_v9) = V1 m ρ c main_v9 := W2_of_ne m ρ c main_v9 (by decide)
theorem W2_v10 (c : Dev nD) : W2 m ρ c (Proc.devRef .tc main_v10) = V1 m ρ c main_v10 := W2_of_ne m ρ c main_v10 (by decide)

/-! ## The second region's operands -/

set_option maxHeartbeats 8000000 in
theorem V3_v25 (c : Dev nD) : V3 m ρ c main_v25
    = pairOf (V1 m ρ c main_v7) ((dat0 (V1 m ρ) c).arrAt 5 cfg0.N) (V1 m ρ c main_arg2) := by
  rw [← W2_v7, ← W2_v11, ← W2_arg2]
  show StableHlo.after hostOps1 (W2 m ρ c) (Proc.devRef .tc main_v25) = _
  after_results; rfl

set_option maxHeartbeats 8000000 in
theorem V3_arg0 (c : Dev nD) : V3 m ρ c main_arg0 = V1 m ρ c main_arg0 := by
  rw [← W2_arg0]
  show StableHlo.after hostOps1 (W2 m ρ c) (Proc.devRef .tc main_arg0) = _
  after_results

set_option maxHeartbeats 8000000 in
theorem V3_arg6 (c : Dev nD) : V3 m ρ c main_arg6 = V1 m ρ c main_arg6 := by
  rw [← W2_arg6]
  show StableHlo.after hostOps1 (W2 m ρ c) (Proc.devRef .tc main_arg6) = _
  after_results

set_option maxHeartbeats 8000000 in
theorem V3_arg7 (c : Dev nD) : V3 m ρ c main_arg7 = V1 m ρ c main_arg7 := by
  rw [← W2_arg7]
  show StableHlo.after hostOps1 (W2 m ρ c) (Proc.devRef .tc main_arg7) = _
  after_results

set_option maxHeartbeats 8000000 in
theorem V3_arg9 (c : Dev nD) : V3 m ρ c main_arg9 = V1 m ρ c main_arg9 := by
  rw [← W2_arg9]
  show StableHlo.after hostOps1 (W2 m ρ c) (Proc.devRef .tc main_arg9) = _
  after_results

set_option maxHeartbeats 8000000 in
theorem V3_v9 (c : Dev nD) : V3 m ρ c main_v9 = V1 m ρ c main_v9 := by
  rw [← W2_v9]
  show StableHlo.after hostOps1 (W2 m ρ c) (Proc.devRef .tc main_v9) = _
  after_results

set_option maxHeartbeats 8000000 in
theorem V3_v10 (c : Dev nD) : V3 m ρ c main_v10 = V1 m ρ c main_v10 := by
  rw [← W2_v10]
  show StableHlo.after hostOps1 (W2 m ρ c) (Proc.devRef .tc main_v10) = _
  after_results

end Cert.KernelIdeal.KHost

end
-- ==== Proof.Spec.lean ====
/-
  The two pallas regions' results as plain functions of their operand arrays, over the extended reals.

  Region A (per node n): the attention logit
      softplus( scale · Σ_j (Σ_k ns[n,k]·Wq[k,j] + bq[j]) · ( ρ(c⁺)·Wk[0,j] + ρ(c⁻)·Wk[1,j] ) ),
  where c is the node's charge, c⁺ = max c 0, c⁻ = max (0 − c) 0 and ρ(p) = p / max p 1.
  Region B (per node n and feature j): with the node's pair (c, r),
      x_j = r · (c⁺·Wv[0,j] + c⁻·Wv[1,j]),      out[n,j] = (ns[n,j] + x_j) + silu(silu(x·W1 + b1)·W2 + b2)_j,
  silu z = z · logistic z.  The float literals are kept as the words the programs carry.
-/
import Idealize.ShloMosaic.PureOps.Ideal
import Idealize.ShloMosaic.Lib.ValueIdx

noncomputable section

namespace Cert.Spec

open Idealize.ShloMosaic Idealize.ShloMosaic.ValueIdx

abbrev SNx128 : Shape := ⟨2, ![1000000, 128]⟩
abbrev SNx1 : Shape := ⟨2, ![1000000, 1]⟩
abbrev SNx2 : Shape := ⟨2, ![1000000, 2]⟩
abbrev SDxD : Shape := ⟨2, ![128, 128]⟩
abbrev S1xD : Shape := ⟨2, ![1, 128]⟩
abbrev S2xD : Shape := ⟨2, ![2, 128]⟩

/-- The word of 0.0. -/
def zF : EReal := Ideal.ofBits .f32 0x00000000#32
/-- The word of 1.0. -/
def oneF : EReal := Ideal.ofBits .f32 0x3F800000#32
/-- The word both programs carry for 1/√128 rounded to f32. -/
def scaleF : EReal := Ideal.ofBits .f32 0x3DB504F3#32

/-- The positive part. -/
def relu (c : EReal) : EReal := max c zF
/-- The positive part of the opposite, spelt as a difference from zero. -/
def nrelu (c : EReal) : EReal := max (zF - c) zF
/-- p / max p 1. -/
def ratio (p : EReal) : EReal := Ideal.div p (max p oneF)

/-- log(1 + eᶻ) in the guarded spelling max z 0 + log1p(exp(0 − |z − 0|)); the guard tests z − 0 ≠ z − 0. -/
def softplusK (z : EReal) : EReal :=
  Scalar.select (Ideal.cmp .one (z - zF) (z - zF)) (z + zF)
    (max z zF + Ideal.log1p (Ideal.exp (zF - max (z - zF) (-(z - zF)))))

/-- z · logistic z. -/
def siluK (z : EReal) : EReal := z * Ideal.logistic z

/-- Row n of region A's result. -/
def attnRow (ns : SNx128.Idx → EReal) (c2 : SNx1.Idx → EReal) (wq : SDxD.Idx → EReal) (bq2 : S1xD.Idx → EReal)
    (wk : S2xD.Idx → EReal) (n : Fin 1000000) : EReal :=
  softplusK ((∑ j : Fin 128, ((∑ k : Fin 128, ns (ix2 n k) * wq (ix2 k j)) + bq2 (ix2 0 j))
      * (ratio (relu (c2 (ix2 n 0))) * wk (ix2 0 j) + ratio (nrelu (c2 (ix2 n 0))) * wk (ix2 1 j))) * scaleF)

/-- The value vector of a node of charge c, feature j. -/
def vK (c : EReal) (wv : S2xD.Idx → EReal) (j : Fin 128) : EReal :=
  relu c * wv (ix2 0 j) + nrelu c * wv (ix2 1 j)

/-- The two-layer network silu(silu(x·W1 + b1)·W2 + b2), feature j. -/
def mlp (x : Fin 128 → EReal) (w1 : SDxD.Idx → EReal) (b1 : S1xD.Idx → EReal) (w2 : SDxD.Idx → EReal)
    (b2 : S1xD.Idx → EReal) (j : Fin 128) : EReal :=
  siluK ((∑ k : Fin 128, siluK ((∑ l : Fin 128, x l * w1 (ix2 l k)) + b1 (ix2 0 k)) * w2 (ix2 k j)) + b2 (ix2 0 j))

/-- The node's update vector r · v. -/
def xK (cr : SNx2.Idx → EReal) (wv : S2xD.Idx → EReal) (n : Fin 1000000) (j : Fin 128) : EReal :=
  cr (ix2 n 1) * vK (cr (ix2 n 0)) wv j

/-- Entry (n, j) of region B's result. -/
def outElt (ns : SNx128.Idx → EReal) (cr : SNx2.Idx → EReal) (wv : S2xD.Idx → EReal) (w1 : SDxD.Idx → EReal)
    (b1 : S1xD.Idx → EReal) (w2 : SDxD.Idx → EReal) (b2 : S1xD.Idx → EReal) (n : Fin 1000000) (j : Fin 128) : EReal :=
  (ns (ix2 n j) + xK cr wv n j) + mlp (xK cr wv n) w1 b1 w2 b2 j

end Cert.Spec

end
-- ==== Proof.AttnValuePay.lean ====
/-
  Region A's body at one row of a block, over the extended reals.

  The body loads a block of 8000 rows of node features and of charges and the three weight arrays whole, and
  stores one value per row: with q_j = Σ_k x[p,k]·Wq[k,j] + bq[j], c the row's charge, c⁺ = max c 0,
  c⁻ = max (0 − c) 0, ρ(a) = a / max a 1 and k_j = ρ(c⁺)·Wk[0,j] + ρ(c⁻)·Wk[1,j], the stored value is
  softplus((Σ_j q_j·k_j)·scale) in the guarded spelling.  Every step of the body but five acts entry by entry;
  the five that move entries — a row broadcast down the rows, a column broadcast across the lanes, a row cut
  out of the two-row weight, the lane sum, the matrix product — are read here at a (row, lane) pair.
-/
import proofs.«107950_j44057774522738_2_alg».proof.Proof.Gen.KernelIdeal.Skeleton
import proofs.«107950_j44057774522738_2_alg».proof.Proof.Spec
import Idealize.ShloMosaic.Lib.ValueLayout
import Idealize.ShloMosaic.PureOps.Ideal.Laws

noncomputable section

namespace Cert.KernelIdeal.AttnValue

open Idealize.ShloMosaic Idealize.ShloMosaic.ValueIdx Cert.KernelIdeal Cert.Spec
open scoped BigOperators

variable {α : Type}

/-! ## The steps that move entries, at a (row, lane) pair -/

/-- A column [a,1] spread across b lanes reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] recast as a column [a,1] reads, at (i, u), the vector at i: both sit at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- Row 0 of a [2,128] array, cut out as a [1,128] array. -/
theorem slice_row0_apply (x : S2x128.Idx → α) (h : S2x128.Slices ![0, 0] S1x128) (u : Fin 1) (q : Fin 128) :
    extractStridedSlice S1x128 ![0, 0] x h (ix2 u q) = x (ix2 (0 : Fin 2) q) :=
  slice2_axis0_apply 0 x h u q 0 (by show (0 : ℕ) = 0 + u.val; omega)

/-- Row 1 of a [2,128] array, cut out as a [1,128] array. -/
theorem slice_row1_apply (x : S2x128.Idx → α) (h : S2x128.Slices ![1, 0] S1x128) (u : Fin 1) (q : Fin 128) :
    extractStridedSlice S1x128 ![1, 0] x h (ix2 u q) = x (ix2 (1 : Fin 2) q) :=
  slice2_axis0_apply 1 x h u q 1 (by show (1 : ℕ) = 1 + u.val; omega)

/-- The lane sum of an [8000,128] block at row p is the sum over the 128 lanes of that row. -/
theorem rowSum_apply (src : FVec Ideal S8000x128 .f32) (h : S8000x128.Reduces [1] S8000) (hφ : FKind.Formats .f32)
    (hacc : (0x00000000#32 : BitVec 32) = FKind.add.neutral .f32 hφ) (p : Fin 8000) :
    multiReduction .add [1] S8000 src 0x00000000#32 h hφ hacc (ix1 p) = ∑ q : Fin 128, src (ix2 p q) := by
  refine (Ideal.multiReduction_add_single src _ h hφ hacc (ix1 p)).trans ?_
  refine Finset.sum_congr rfl fun q _ => congrArg src ?_
  funext a; apply Fin.ext
  match a with
  | ⟨0, _⟩ => rfl
  | ⟨1, _⟩ => rfl

/-! ## The matrix product of a block with the square weight -/

/-- Where the product's output index (row, lane) and contraction index k send the left operand: to (row, k) … -/
theorem lhs_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- … and the right operand: to (k, lane). -/
theorem rhs_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block's product into a zero accumulator at (p, j): the sum over k of the row's entry times the weight's,
    the one-axis contraction index renamed to its coordinate k. -/
theorem matmul_apply (l : FVec Ideal S8000x128 .bf16) (r : FVec Ideal S128x128 .bf16) (p : Fin 8000) (j : Fin 128) :
    matmul dot_S8000x128_S128x128_S8000x128_1_0_0_1_n_n none l r (constant S8000x128 .f32 0x00000000#32) (ix2 p j)
      = ∑ k : Fin 128, l (ix2 p k) * r (ix2 k j) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p j) ((contrEquiv1 dot_S8000x128_S128x128_S8000x128_1_0_0_1_n_n 128 rfl rfl).symm k) = ix2 p k := funext fun a => Fin.ext (by
    match a with
    | ⟨0, _⟩ => exact lhs_0 _ _
    | ⟨1, _⟩ => exact (lhs_1 _ _).trans hk)
  have er : dot_S8000x128_S128x128_S8000x128_1_0_0_1_n_n.rhsIdx (ix2 p j) ((contrEquiv1 dot_S8000x128_S128x128_S8000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-! ## The body's value at a row -/

/-- The scaled dot product of row p: (Σ_j q_j·k_j)·scale. The format changes are the identity and every other
    step is entry by entry, so once the five moving steps are read the two sides are the same term. -/
theorem pay2_apply (x0 : Vec Ideal S8000x128 .f32) (x1 : Vec Ideal S8000x1 .f32) (x2 : Vec Ideal S128x128 .f32)
    (x3 : Vec Ideal S1x128 .f32) (x4 : Vec Ideal S2x128 .f32) (p : Fin 8000) :
    Gen.k0_pay2 x0 x1 x2 x3 x4 (ix2 p 0)
      = (∑ j : Fin 128, ((∑ k : Fin 128, x0 (ix2 p k) * x2 (ix2 k j)) + x3 (ix2 0 j))
          * (ratio (relu (x1 (ix2 p 0))) * x4 (ix2 0 j) + ratio (nrelu (x1 (ix2 p 0))) * x4 (ix2 1 j))) * scaleF := by
  unfold Gen.k0_pay2
  simp only [mulf_apply, shapeCast_a_a1_apply]
  refine congrArg₂ (· * ·) ((rowSum_apply _ _ _ _ p).trans (Finset.sum_congr rfl fun j _ => ?_)) rfl
  simp only [mulf_apply, addf_apply, matmul_apply, broadcastTo_1b_ab_apply, broadcastTo_a1_ab_apply, slice_row0_apply, slice_row1_apply,
    shapeCast_self, truncf_apply]
  rfl

/-- The stored value at row p: the guarded softplus of that scaled dot product (the softplus is entry by entry). -/
theorem pay_apply (x0 : Vec Ideal S8000x128 .f32) (x1 : Vec Ideal S8000x1 .f32) (x2 : Vec Ideal S128x128 .f32)
    (x3 : Vec Ideal S1x128 .f32) (x4 : Vec Ideal S2x128 .f32) (p : Fin 8000) :
    Gen.k0_pay1 (Gen.k0_pay2 x0 x1 x2 x3 x4) (Scalar.ofBits .f32 0x00000000#32) (Gen.k0_pay3 x0 x1 x2 x3 x4) (ix2 p 0)
      = softplusK ((∑ j : Fin 128, ((∑ k : Fin 128, x0 (ix2 p k) * x2 (ix2 k j)) + x3 (ix2 0 j))
          * (ratio (relu (x1 (ix2 p 0))) * x4 (ix2 0 j) + ratio (nrelu (x1 (ix2 p 0))) * x4 (ix2 1 j))) * scaleF) := by
  have h1 : Gen.k0_pay1 (Gen.k0_pay2 x0 x1 x2 x3 x4) (Scalar.ofBits .f32 0x00000000#32) (Gen.k0_pay3 x0 x1 x2 x3 x4) (ix2 p 0)
      = softplusK (Gen.k0_pay2 x0 x1 x2 x3 x4 (ix2 p 0)) := rfl
  rw [h1, pay2_apply]

/-- The same against whole arrays: if row p of the feature block is row n of `ns`, the block's charge at p is the
    charge of n, and the three weight blocks are the weight arrays, the stored value is row n of region A's result. -/
theorem pay_attnRow (x0 : Vec Ideal S8000x128 .f32) (x1 : Vec Ideal S8000x1 .f32) (x2 : Vec Ideal S128x128 .f32)
    (x3 : Vec Ideal S1x128 .f32) (x4 : Vec Ideal S2x128 .f32) (p : Fin 8000)
    (ns : SNx128.Idx → EReal) (c2 : SNx1.Idx → EReal) (wq : SDxD.Idx → EReal) (bq2 : S1xD.Idx → EReal)
    (wk : S2xD.Idx → EReal) (n : Fin 1000000)
    (h0 : ∀ k : Fin 128, x0 (ix2 p k) = ns (ix2 n k)) (h1 : x1 (ix2 p 0) = c2 (ix2 n 0))
    (h2 : ∀ k j : Fin 128, x2 (ix2 k j) = wq (ix2 k j)) (h3 : ∀ j : Fin 128, x3 (ix2 0 j) = bq2 (ix2 0 j))
    (h4 : ∀ (r : Fin 2) (j : Fin 128), x4 (ix2 r j) = wk (ix2 r j)) :
    Gen.k0_pay1 (Gen.k0_pay2 x0 x1 x2 x3 x4) (Scalar.ofBits .f32 0x00000000#32) (Gen.k0_pay3 x0 x1 x2 x3 x4) (ix2 p 0)
      = attnRow ns c2 wq bq2 wk n := by
  rw [pay_apply]
  unfold attnRow
  simp only [h0, h1, h2, h3, h4]

end Cert.KernelIdeal.AttnValue

end
-- ==== Proof.AttnValue.lean ====
/-
  Region A's result array, from whatever contents the region finds.

  The region runs 125 points; point t stages rows 8000·t … 8000·t + 7999 of the node features and of the
  charges, and the three weight arrays whole, and writes back 8000 rows of the result.  The body's one store
  covers its buffer and its value at row p is `Spec.attnRow` of the staged blocks (the payload module); row p
  of a row block is row 8000·t + p of its array, so what point t writes back is block t of ONE function of the
  arrays, `attnArr`.  Row r lies in the block of point r / 8000 and every point writes back, so after the last
  point the result array is `attnArr` everywhere.
-/
import proofs.«107950_j44057774522738_2_alg».proof.Proof.Gen.KernelIdeal.Frame
import proofs.«107950_j44057774522738_2_alg».proof.Proof.AttnValuePay
import Idealize.ShloMosaic.Lib.Pipeline.Value

noncomputable section

namespace Cert.KernelIdeal.AttnValue

open Idealize.ShloMosaic Idealize.ShloMosaic.TcCoe Idealize.ShloMosaic.ValueIdx Idealize.SL.Sem
open Idealize.ShloMosaic.Pipeline (Dat)
open Cert.KernelIdeal Cert.KernelIdeal.Gen Cert.Spec

/- The buffer contents when the region is entered: arbitrary. -/
variable (V : (c : Dev nD) → (b : Ref sig .tc) → Buf (Elt Ideal) ((c : Thread nD τ).loc b))

/-- The body's loads and its store start at offsets (0, 0). -/
theorem zero_offsets : (![0, 0] : Fin 2 → Nat) = fun _ => 0 := funext fun a => by fin_cases a <;> rfl

/-- Region A's result array as one function of the arrays the region finds: row n is `attnRow` at n. -/
def attnArr (c : Dev nD) : S1000000x1.Idx → EReal := fun i =>
  attnRow (V c main_arg0) (V c main_v7) (V c main_arg3) (V c main_v8) (V c main_arg5) (i 0)

/-- The printed block index maps, decided over the 125 points: the row-blocked windows (features, charges,
    result) sit at block (t, 0), the weight windows at block (0, 0). -/
theorem blockIndex_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each staged block, read where it sits in its array

A block's entry sits in the array, on each axis, at block index × block size + its own coordinate. -/

/-- Row p of the feature block at point t is row 8000·t + p of the feature array. -/
theorem featureBlock_apply (c : Dev nD) (t : Fin cfg0.N) (p : Fin 8000) (k : Fin 128) (n : Fin 1000000)
    (hn : n.val = t.val * 8000 + p.val) :
    (iblk0 V c 0 t : S8000x128.Idx → EReal) (ix2 p k) = (V c main_arg0 : S1000000x128.Idx → EReal) (ix2 n k) := by
  obtain ⟨e0, e1, -⟩ := blockIndex_facts t
  unfold iblk0
  rw [View.read_apply]
  show V c main_arg0 _ = V c main_arg0 _
  refine congrArg (V c main_arg0 : S1000000x128.Idx → EReal) (funext fun a => Fin.ext ?_)
  match a with
  | ⟨0, _⟩ => show win0_0.index t (0 : Fin 2) * 8000 + 1 * p.val = n.val; rw [e0, hn]; omega
  | ⟨1, _⟩ => show win0_0.index t (1 : Fin 2) * 128 + 1 * k.val = k.val; rw [e1]; omega

/-- The charge block at point t holds, at row p, the charge of row 8000·t + p. -/
theorem chargeBlock_apply (c : Dev nD) (t : Fin cfg0.N) (p : Fin 8000) (n : Fin 1000000)
    (hn : n.val = t.val * 8000 + p.val) :
    (iblk0 V c 1 t : S8000x1.Idx → EReal) (ix2 p 0) = (V c main_v7 : S1000000x1.Idx → EReal) (ix2 n 0) := by
  obtain ⟨-, -, e0, e1, -⟩ := blockIndex_facts t
  unfold iblk0
  rw [View.read_apply]
  show V c main_v7 _ = V c main_v7 _
  refine congrArg (V c main_v7 : S1000000x1.Idx → EReal) (funext fun a => Fin.ext ?_)
  match a with
  | ⟨0, _⟩ => show win0_1.index t (0 : Fin 2) * 8000 + 1 * p.val = n.val; rw [e0, hn]; omega
  | ⟨1, _⟩ => show win0_1.index t (1 : Fin 2) * 1 + 1 * 0 = 0; rw [e1]

/-- The square weight's block is the whole array at every point. -/
theorem wqBlock_apply (c : Dev nD) (t : Fin cfg0.N) (k j : Fin 128) :
    (iblk0 V c 2 t : S128x128.Idx → EReal) (ix2 k j) = (V c main_arg3 : S128x128.Idx → EReal) (ix2 k j) := by
  obtain ⟨-, -, -, -, e0, e1, -⟩ := blockIndex_facts t
  unfold iblk0
  rw [View.read_apply]
  show V c main_arg3 _ = V c main_arg3 _
  refine congrArg (V c main_arg3 : S128x128.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- So is the bias row's. -/
theorem biasBlock_apply (c : Dev nD) (t : Fin cfg0.N) (j : Fin 128) :
    (iblk0 V c 3 t : S1x128.Idx → EReal) (ix2 0 j) = (V c main_v8 : S1x128.Idx → EReal) (ix2 0 j) := by
  obtain ⟨-, -, -, -, -, -, e0, e1, -⟩ := blockIndex_facts t
  unfold iblk0
  rw [View.read_apply]
  show V c main_v8 _ = V c main_v8 _
  refine congrArg (V c main_v8 : S1x128.Idx → EReal) (funext fun a => Fin.ext ?_)
  match a with
  | ⟨0, _⟩ => show win0_3.index t (0 : Fin 2) * 1 + 1 * 0 = 0; rw [e0]
  | ⟨1, _⟩ => show win0_3.index t (1 : Fin 2) * 128 + 1 * j.val = j.val; rw [e1]; omega

/-- And the two-row weight's. -/
theorem wkBlock_apply (c : Dev nD) (t : Fin cfg0.N) (r : Fin 2) (j : Fin 128) :
    (iblk0 V c 4 t : S2x128.Idx → EReal) (ix2 r j) = (V c main_arg5 : S2x128.Idx → EReal) (ix2 r j) := by
  obtain ⟨-, -, -, -, -, -, -, -, e0, e1, -⟩ := blockIndex_facts t
  unfold iblk0
  rw [View.read_apply]
  show V c main_arg5 _ = V c main_arg5 _
  refine congrArg (V c main_arg5 : S2x128.Idx → EReal) (funext fun a => Fin.ext ?_)
  match a with
  | ⟨0, _⟩ => show win0_4.index t (0 : Fin 2) * 2 + 1 * r.val = r.val; rw [e0]; omega
  | ⟨1, _⟩ => show win0_4.index t (1 : Fin 2) * 128 + 1 * j.val = j.val; rw [e1]; omega

/-! ## From blocks to the array -/

/-- What point t writes back is block t of `attnArr`: the body's one store covers its buffer, its loads read the
    staged blocks whole, and row p of the written block is row 8000·t + p of the result. -/
theorem writeback_eq (c : Dev nD) (t : Fin cfg0.N) :
    (dat0 V c).flushed 5 t = ((cfg0.win 5).blk t).view.read (Elt Ideal) (attnArr V c) := by
  show (cfg0.win 5).cut (grid0.coords t) ((dat0 V c).after 5 t) = _
  rw [after0_5]
  unfold out0_5
  rw [View.canon_unit_zero zero_offsets]
  simp only [View.ld_unit_zero (S := S8000x128) zero_offsets, View.ld_unit_zero (S := S8000x1) zero_offsets,
    View.ld_unit_zero (S := S128x128) zero_offsets, View.ld_unit_zero (S := S1x128) zero_offsets,
    View.ld_unit_zero (S := S2x128) zero_offsets]
  obtain ⟨-, -, -, -, -, -, -, -, -, -, e0, e1⟩ := blockIndex_facts t
  funext y
  obtain ⟨p, u, rfl⟩ : ∃ (p : Fin 8000) (u : Fin 1), y = ix2 p u := ⟨y 0, y 1, eq_ix2 y⟩
  obtain rfl : u = 0 := Subsingleton.elim _ _
  have hN : cfg0.N = 125 := N_0
  have ht := t.isLt
  have hp := p.isLt
  let n : Fin 1000000 := ⟨t.val * 8000 + p.val, by omega⟩
  have hn : n.val = t.val * 8000 + p.val := rfl
  refine (pay_attnRow (iblk0 V c 0 t) (iblk0 V c 1 t) (iblk0 V c 2 t) (iblk0 V c 3 t) (iblk0 V c 4 t) p
      (V c main_arg0) (V c main_v7) (V c main_arg3) (V c main_v8) (V c main_arg5) n
      (fun k => featureBlock_apply V c t p k n hn) (chargeBlock_apply V c t p n hn) (fun k j => wqBlock_apply V c t k j)
      (fun j => biasBlock_apply V c t j) (fun r j => wkBlock_apply V c t r j)).trans ?_
  rw [View.read_apply]
  refine congrArg (attnRow (V c main_arg0) (V c main_v7) (V c main_arg3) (V c main_v8) (V c main_arg5)) (Fin.ext ?_)
  show t.val * 8000 + p.val = win0_5.index t (0 : Fin 2) * 8000 + 1 * p.val
  rw [e0]; omega

/-- An index of the result array is in point t's block iff each coordinate is in the block's range on its axis. -/
theorem mem_rowBlock (t : Fin cfg0.N) (i : S1000000x1.Idx) :
    i ∈ ((cfg0.win 5).blk t).view.set ↔ ∀ a : Fin 2, win0_5.index t a * S8000x1.size a ≤ (i a).val ∧ (i a).val < win0_5.index t a * S8000x1.size a + S8000x1.size a := by
  show i ∈ ((View.whole main_v11).slice (win0_5.rect t)).set ↔ _
  rw [View.set_slice_whole, Rect.mem_set_unit]
  exact Iff.rfl

/-- Every row is in some point's block: row r is in the block of point r / 8000, and every point writes back. -/
theorem rows_covered (i : S1000000x1.Idx) :
    ∃ t : Fin cfg0.N, (cfg0.win 5).flush t = true ∧ i ∈ ((cfg0.win 5).blk t).view.set := by
  have hi0 : (i 0).val < 1000000 := (i 0).isLt
  have hi1 : (i 1).val < 1 := (i 1).isLt
  have hN : cfg0.N = 125 := N_0
  let t : Fin cfg0.N := ⟨(i 0).val / 8000, by omega⟩
  have ht : t.val = (i 0).val / 8000 := rfl
  obtain ⟨-, -, -, -, -, -, -, -, -, -, e0, e1⟩ := blockIndex_facts t
  refine ⟨t, flush0_5 t, ?_⟩
  rw [mem_rowBlock]
  intro a
  match a with
  | ⟨0, _⟩ =>
    show win0_5.index t (0 : Fin 2) * 8000 ≤ (i 0).val ∧ (i 0).val < win0_5.index t (0 : Fin 2) * 8000 + 8000
    rw [e0, ht]; omega
  | ⟨1, _⟩ =>
    show win0_5.index t (1 : Fin 2) * 1 ≤ (i 1).val ∧ (i 1).val < win0_5.index t (1 : Fin 2) * 1 + 1
    rw [e1]; omega

/-- REGION A's RESULT ARRAY after the region's last point, from ANY entry contents V: `attnArr` of the arrays
    the region finds. -/
theorem arr_attn_eq (c : Dev nD) : (dat0 V c).arrAt 5 cfg0.N = attnArr V c :=
  (dat0 V c).arrAt_eq_of_cover 5 (attnArr V c) (fun t _ => writeback_eq V c t) rows_covered

/-- The same, row by row: row n holds `attnRow` of the features, the charges and the three weights, at n. -/
theorem arr_attn (c : Dev nD) (n : Fin 1000000) :
    ((dat0 V c).arrAt 5 cfg0.N : S1000000x1.Idx → EReal) (ix2 n 0)
      = attnRow (V c main_arg0) (V c main_v7) (V c main_arg3) (V c main_v8) (V c main_arg5) n := by
  rw [arr_attn_eq]; rfl

end Cert.KernelIdeal.AttnValue

end
-- ==== Proof.OutValuePay.lean ====
/-
  Region B's body, read entry by entry.

  The body holds one block of 8000 nodes: their feature rows x0, their (charge, r) pairs x1, and the weights
  Wv = x2, W1 = x3, b1 = x4, W2 = x5, b2 = x6 whole.  Its one store writes, at row p and feature q,
      (x0[p,q] + u_q) + silu(silu(u·W1 + b1)·W2 + b2)_q,      u = r_p · (c_p⁺·Wv[0,·] + c_p⁻·Wv[1,·]),
  where c_p = x1[p,0] and r_p = x1[p,1].  The two matrix products accumulate onto a zero splat, so each is the plain
  sum over the 128 contracted features; the changes of float format are the identity over the extended reals.
-/
import proofs.«107950_j44057774522738_2_alg».proof.Proof.Gen.KernelIdeal.Skeleton
import proofs.«107950_j44057774522738_2_alg».proof.Proof.Spec
import Idealize.ShloMosaic.Lib.ValueLayout
import Idealize.ShloMosaic.PureOps.Ideal.Laws

noncomputable section

namespace Cert.KernelIdeal.OutValue

open Cert.KernelIdeal Cert.KernelIdeal.Gen Idealize.ShloMosaic Idealize.ShloMosaic.ValueIdx

/-! ## Layout operations at coordinates -/

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column o of a block of pairs, as a column vector: its entry of row p is the pair's component o. -/
theorem pair_col (o : Nat) (X : Vec Ideal S8000x2 .f32) (h : S8000x2.Slices ![0, o] S8000x1) (p : Fin 8000)
    (k : Fin 2) (hk : k.val = o) :
    extractStridedSlice S8000x1 ![0, o] X h (ix2 p (0 : Fin 1)) = X (ix2 p k) :=
  slice2_axis1_apply o X h p 0 k (by simp [hk])

/-- Row o of the two-row weight, as a row vector. -/
theorem wv_row (o : Nat) (X : Vec Ideal S2x128 .f32) (h : S2x128.Slices ![o, 0] S1x128) (q : Fin 128)
    (k : Fin 2) (hk : k.val = o) :
    extractStridedSlice S1x128 ![o, 0] X h (ix2 (0 : Fin 1) q) = X (ix2 k q) :=
  slice2_axis0_apply o X h 0 q k (by simp [hk])

theorem logistic_apply {s : Shape} {φ : FTy} (a : FVec Ideal s φ) (i : s.Idx) : logistic a i = Ideal.logistic (a i) := rfl

/-! ## The matrix product onto a zero splat -/

theorem lhs_row (i : S8000x128.Idx) (k : dot_S8000x128_S128x128_S8000x128_1_0_0_1_n_n.contr.Idx) :
    (dot_S8000x128_S128x128_S8000x128_1_0_0_1_n_n.lhsIdx i k 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

theorem rhs_col (i : S8000x128.Idx) (k : dot_S8000x128_S128x128_S8000x128_1_0_0_1_n_n.contr.Idx) :
    (dot_S8000x128_S128x128_S8000x128_1_0_0_1_n_n.rhsIdx i k 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- Entry (p, q) of a block's product with a 128×128 matrix, accumulated onto zeros: Σ_k a[p,k]·b[k,q]. -/
theorem matmul_zero_apply (a : FVec Ideal S8000x128 .bf16) (b : FVec Ideal S128x128 .bf16) (p : Fin 8000) (q : Fin 128) :
    matmul (F := Ideal) dot_S8000x128_S128x128_S8000x128_1_0_0_1_n_n none a b (constant (F := Ideal) S8000x128 .f32 0x00000000#32) (ix2 p q)
      = ∑ k : Fin 128, a (ix2 p k) * b (ix2 k q) := by
  refine (Ideal.matmul_constant_zero_apply dot_S8000x128_S128x128_S8000x128_1_0_0_1_n_n none a b (ix2 p q)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q)
      ((contrEquiv1 dot_S8000x128_S128x128_S8000x128_1_0_0_1_n_n 128 rfl rfl).symm k) = ix2 p k :=
    funext fun ax => Fin.ext (by
      match ax with
      | ⟨0, _⟩ => exact lhs_row _ _
      | ⟨1, _⟩ => exact (dot_S8000x128_S128x128_S8000x128_1_0_0_1_n_n.lhsIdx_val_of_single rfl _ _).trans hk)
  have er : dot_S8000x128_S128x128_S8000x128_1_0_0_1_n_n.rhsIdx (ix2 p q)
      ((contrEquiv1 dot_S8000x128_S128x128_S8000x128_1_0_0_1_n_n 128 rfl rfl).symm k) = ix2 k q :=
    funext fun ax => Fin.ext (by
      match ax with
      | ⟨0, _⟩ => exact (dot_S8000x128_S128x128_S8000x128_1_0_0_1_n_n.rhsIdx_val_of_single rfl _ _).trans hk
      | ⟨1, _⟩ => exact rhs_col _ _)
  rw [el, er]

/-! ## The block's result as one function of its coordinates -/

/-- The update vector of row p of a block: r_p · (c_p⁺·Wv[0,q] + c_p⁻·Wv[1,q]). -/
def xBlk (x1 : Vec Ideal S8000x2 .f32) (x2 : Vec Ideal S2x128 .f32) (p : Fin 8000) (q : Fin 128) : EReal :=
  x1 (ix2 p 1) * Spec.vK (x1 (ix2 p 0)) x2 q

/-- Entry (p, q) of what the body stores. -/
def blkOut (x0 : Vec Ideal S8000x128 .f32) (x1 : Vec Ideal S8000x2 .f32) (x2 : Vec Ideal S2x128 .f32)
    (x3 : Vec Ideal S128x128 .f32) (x4 : Vec Ideal S1x128 .f32) (x5 : Vec Ideal S128x128 .f32) (x6 : Vec Ideal S1x128 .f32)
    (p : Fin 8000) (q : Fin 128) : EReal :=
  (x0 (ix2 p q) + xBlk x1 x2 p q) + Spec.mlp (xBlk x1 x2 p) x3 x4 x5 x6 q

/-- The update vector, as the body computes it. -/
theorem pay2_apply (x1 : Vec Ideal S8000x2 .f32) (x2 : Vec Ideal S2x128 .f32) (p : Fin 8000) (q : Fin 128) :
    k1_pay2 (F := Ideal) x1 x2 (ix2 p q) = xBlk x1 x2 p q := by
  unfold k1_pay2
  simp only [mulf_apply, addf_apply, maximumf_apply, subf_apply, broadcast_apply, shapeCast_self,
    broadcastTo_a1_ab_apply, broadcastTo_1b_ab_apply,
    pair_col 0 _ _ p 0 rfl, pair_col 1 _ _ p 1 rfl, wv_row 0 _ _ q 0 rfl, wv_row 1 _ _ q 1 rfl]
  rfl

/-- The second product, before its bias: Σ_k silu((u·W1)_k + b1_k) · W2[k,q]. -/
theorem pay3_apply (x1 : Vec Ideal S8000x2 .f32) (x2 : Vec Ideal S2x128 .f32) (x3 : Vec Ideal S128x128 .f32)
    (x4 : Vec Ideal S1x128 .f32) (x5 : Vec Ideal S128x128 .f32) (p : Fin 8000) (q : Fin 128) :
    k1_pay3 (F := Ideal) x1 x2 x3 x4 x5 (ix2 p q)
      = ∑ k : Fin 128, Spec.siluK ((∑ l : Fin 128, xBlk x1 x2 p l * x3 (ix2 l k)) + x4 (ix2 0 k)) * x5 (ix2 k q) := by
  unfold k1_pay3
  simp only [matmul_zero_apply, truncf_apply, mulf_apply, addf_apply, logistic_apply, shapeCast_self,
    broadcastTo_1b_ab_apply, pay2_apply]
  rfl

/-- The second bias, spread over the rows. -/
theorem pay4_apply (x6 : Vec Ideal S1x128 .f32) (p : Fin 8000) (q : Fin 128) :
    k1_pay4 (F := Ideal) x6 (ix2 p q) = x6 (ix2 0 q) := by
  unfold k1_pay4
  simp only [shapeCast_self, broadcastTo_1b_ab_apply]

/-- THE STORED BLOCK at (p, q). -/
theorem pay_apply (x0 : Vec Ideal S8000x128 .f32) (x1 : Vec Ideal S8000x2 .f32) (x2 : Vec Ideal S2x128 .f32)
    (x3 : Vec Ideal S128x128 .f32) (x4 : Vec Ideal S1x128 .f32) (x5 : Vec Ideal S128x128 .f32) (x6 : Vec Ideal S1x128 .f32)
    (p : Fin 8000) (q : Fin 128) :
    k1_pay1 (F := Ideal) x0 (k1_pay2 x1 x2) (k1_pay3 x1 x2 x3 x4 x5) (k1_pay4 x6) (ix2 p q) = blkOut x0 x1 x2 x3 x4 x5 x6 p q := by
  unfold k1_pay1
  simp only [addf_apply, mulf_apply, logistic_apply, pay2_apply, pay3_apply, pay4_apply]
  rfl

/-- The same at an index of the block's shape. -/
theorem pay_idx (x0 : Vec Ideal S8000x128 .f32) (x1 : Vec Ideal S8000x2 .f32) (x2 : Vec Ideal S2x128 .f32)
    (x3 : Vec Ideal S128x128 .f32) (x4 : Vec Ideal S1x128 .f32) (x5 : Vec Ideal S128x128 .f32) (x6 : Vec Ideal S1x128 .f32)
    (j : S8000x128.Idx) :
    k1_pay1 (F := Ideal) x0 (k1_pay2 x1 x2) (k1_pay3 x1 x2 x3 x4 x5) (k1_pay4 x6) j = blkOut x0 x1 x2 x3 x4 x5 x6 (j 0) (j 1) := by
  obtain ⟨p, q, rfl⟩ : ∃ (p : Fin 8000) (q : Fin 128), j = ix2 p q := ⟨j 0, j 1, eq_ix2 j⟩
  exact pay_apply x0 x1 x2 x3 x4 x5 x6 p q

/-- A block's entry is the whole array's: when row p of the block is row n of the arrays (the feature row and the
    pair), and the weights are the arrays' own, the stored entry is region B's result at (n, q). -/
theorem blkOut_eq_outElt (x0 : Vec Ideal S8000x128 .f32) (x1 : Vec Ideal S8000x2 .f32) (x2 : Vec Ideal S2x128 .f32)
    (x3 : Vec Ideal S128x128 .f32) (x4 : Vec Ideal S1x128 .f32) (x5 : Vec Ideal S128x128 .f32) (x6 : Vec Ideal S1x128 .f32)
    (A0 : Spec.SNx128.Idx → EReal) (A1 : Spec.SNx2.Idx → EReal) (A2 : Spec.S2xD.Idx → EReal) (A3 : Spec.SDxD.Idx → EReal)
    (A4 : Spec.S1xD.Idx → EReal) (A5 : Spec.SDxD.Idx → EReal) (A6 : Spec.S1xD.Idx → EReal)
    (p : Fin 8000) (q : Fin 128) (n : Fin 1000000) (q' : Fin 128) (hq : q' = q)
    (h0 : x0 (ix2 p q) = A0 (ix2 n q)) (h1 : ∀ z : Fin 2, x1 (ix2 p z) = A1 (ix2 n z))
    (h2 : x2 = A2) (h3 : x3 = A3) (h4 : x4 = A4) (h5 : x5 = A5) (h6 : x6 = A6) :
    blkOut x0 x1 x2 x3 x4 x5 x6 p q = Spec.outElt A0 A1 A2 A3 A4 A5 A6 n q' := by
  subst hq h2 h3 h4 h5 h6
  have hx : xBlk x1 x2 p = Spec.xK A1 x2 n := funext fun l => by
    unfold xBlk Spec.xK; rw [h1 0, h1 1]
  unfold blkOut Spec.outElt
  rw [hx, h0]

end Cert.KernelIdeal.OutValue

end
-- ==== Proof.OutValue.lean ====
/-
  Region B's output array after the region, entry by entry.

  The grid has 125 points; point t stages rows 8000·t … 8000·t + 7999 of the feature array and of the (charge, r)
  pairs, and the five weight arrays whole, and writes back the same rows of the output.  Row p of a block is therefore
  row 8000·t + p of the arrays, so what point t writes back is block t of ONE function of the arrays the region finds,
  and since the 125 blocks tile the million rows (row n lies in block n / 8000) the output array ends holding that
  function everywhere.
-/
import proofs.«107950_j44057774522738_2_alg».proof.Proof.Gen.KernelIdeal.Frame
import proofs.«107950_j44057774522738_2_alg».proof.Proof.OutValuePay
import Idealize.ShloMosaic.Lib.Pipeline.Value

noncomputable section

namespace Cert.KernelIdeal.OutValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the region finds: entry (n, q) is region B's result there. -/
abbrev outArr (c : Dev nD) : S1000000x128.Idx → EReal := fun i =>
  Spec.outElt (V c main_arg0) (V c main_v25) (V c main_arg6) (V c main_arg7) (V c main_v9) (V c main_arg9) (V c main_v10) (i 0) (i 1)

/-- The block index maps over the grid: the row-blocked windows (features, pairs, output) sit at block (t, 0), the
    weight windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block, read where it sits in its array -/

/-- Row y₀ of point t's feature block is row 8000·t + y₀ of the feature array. -/
theorem feat_blk (c : Dev nD) (t : Fin cfg1.N) (y : S8000x128.Idx) (i : S1000000x128.Idx)
    (h0 : (i 0).val = t.val * 8000 + (y 0).val) (h1 : (i 1).val = (y 1).val) :
    (iblk1 V c 0 t : Vec Ideal S8000x128 .f32) y = (V c main_arg0 : S1000000x128.Idx → EReal) i := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 8000 + 1 * (y 0).val = (i 0).val; rw [e0, h0]; omega
  | ⟨1, _⟩ => show win1_0.index t (1 : Fin 2) * 128 + 1 * (y 1).val = (i 1).val; rw [e1, h1]; omega

/-- Row y₀ of point t's block of pairs is row 8000·t + y₀ of the array of pairs. -/
theorem pair_blk (c : Dev nD) (t : Fin cfg1.N) (y : S8000x2.Idx) (i : S1000000x2.Idx)
    (h0 : (i 0).val = t.val * 8000 + (y 0).val) (h1 : (i 1).val = (y 1).val) :
    (iblk1 V c 1 t : Vec Ideal S8000x2 .f32) y = (V c main_v25 : S1000000x2.Idx → EReal) i := by
  obtain ⟨-, -, e0, e1, -⟩ := idx_facts t
  unfold iblk1
  rw [View.read_apply]
  show V c main_v25 _ = V c main_v25 _
  congr 1
  funext a
  apply Fin.ext
  match a with
  | ⟨0, _⟩ => show win1_1.index t (0 : Fin 2) * 8000 + 1 * (y 0).val = (i 0).val; rw [e0, h0]; omega
  | ⟨1, _⟩ => show win1_1.index t (1 : Fin 2) * 2 + 1 * (y 1).val = (i 1).val; rw [e1, h1]; omega

/-- The weight windows hold their whole arrays at every point. -/
theorem wv_blk (c : Dev nD) (t : Fin cfg1.N) : (iblk1 V c 2 t : Vec Ideal S2x128 .f32) = V c main_arg6 := by
  obtain ⟨-, -, -, -, e0, e1, -⟩ := idx_facts t
  funext y
  unfold iblk1
  rw [View.read_apply]
  show V c main_arg6 _ = V c main_arg6 _
  congr 1
  funext a
  apply Fin.ext
  match a with
  | ⟨0, _⟩ => show win1_2.index t (0 : Fin 2) * 2 + 1 * (y 0).val = (y 0).val; rw [e0]; omega
  | ⟨1, _⟩ => show win1_2.index t (1 : Fin 2) * 128 + 1 * (y 1).val = (y 1).val; rw [e1]; omega

theorem w1_blk (c : Dev nD) (t : Fin cfg1.N) : (iblk1 V c 3 t : Vec Ideal S128x128 .f32) = V c main_arg7 := by
  obtain ⟨-, -, -, -, -, -, e0, e1, -⟩ := idx_facts t
  funext y
  unfold iblk1
  rw [View.read_apply]
  show V c main_arg7 _ = V c main_arg7 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem b1_blk (c : Dev nD) (t : Fin cfg1.N) : (iblk1 V c 4 t : Vec Ideal S1x128 .f32) = V c main_v9 := by
  obtain ⟨-, -, -, -, -, -, -, -, e0, e1, -⟩ := idx_facts t
  funext y
  unfold iblk1
  rw [View.read_apply]
  show V c main_v9 _ = V c main_v9 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem w2_blk (c : Dev nD) (t : Fin cfg1.N) : (iblk1 V c 5 t : Vec Ideal S128x128 .f32) = V c main_arg9 := by
  obtain ⟨-, -, -, -, -, -, -, -, -, -, e0, e1, -⟩ := idx_facts t
  funext y
  unfold iblk1
  rw [View.read_apply]
  show V c main_arg9 _ = V c main_arg9 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem b2_blk (c : Dev nD) (t : Fin cfg1.N) : (iblk1 V c 6 t : Vec Ideal S1x128 .f32) = V c main_v10 := by
  obtain ⟨-, -, -, -, -, -, -, -, -, -, -, -, e0, e1, -⟩ := idx_facts t
  funext y
  unfold iblk1
  rw [View.read_apply]
  show V c main_v10 _ = V c main_v10 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## What a point writes back -/

/-- WHAT POINT t WRITES BACK is block t of the whole-array function. -/
theorem flushed_eq (c : Dev nD) (t : Fin cfg1.N) :
    (dat1 V c).flushed 7 t = ((cfg1.win 7).blk t).view.read (Elt Ideal) (outArr V c) := by
  show (cfg1.win 7).cut (grid1.coords t) ((dat1 V c).after 7 t) = _
  rw [after1_7]
  unfold out1_7
  rw [View.canon_unit_zero hz]
  simp only [View.ld_unit_zero (S := S8000x128) hz, View.ld_unit_zero (S := S8000x2) hz, View.ld_unit_zero (S := S2x128) hz,
    View.ld_unit_zero (S := S128x128) hz, View.ld_unit_zero (S := S1x128) hz]
  obtain ⟨-, -, -, -, -, -, -, -, -, -, -, -, -, -, e0, e1⟩ := idx_facts t
  funext j
  refine (pay_idx (iblk1 V c 0 t) (iblk1 V c 1 t) (iblk1 V c 2 t) (iblk1 V c 3 t) (iblk1 V c 4 t) (iblk1 V c 5 t)
    (iblk1 V c 6 t) (win1_7.xinj (grid1.coords t) j)).trans ?_
  rw [View.read_apply]
  have hr : ((((cfg1.win 7).blk t).view.emb j) 0).val = t.val * 8000 + (j 0).val := by
    show win1_7.index t (0 : Fin 2) * 8000 + 1 * (j 0).val = _; rw [e0]; omega
  have hc : ((((cfg1.win 7).blk t).view.emb j) 1).val = (j 1).val := by
    show win1_7.index t (1 : Fin 2) * 128 + 1 * (j 1).val = _; rw [e1]; omega
  refine blkOut_eq_outElt (iblk1 V c 0 t) (iblk1 V c 1 t) (iblk1 V c 2 t) (iblk1 V c 3 t) (iblk1 V c 4 t) (iblk1 V c 5 t)
    (iblk1 V c 6 t) (V c main_arg0) (V c main_v25) (V c main_arg6) (V c main_arg7) (V c main_v9) (V c main_arg9) (V c main_v10)
    _ _ _ _ (Fin.ext hc) ?_ (fun z => ?_) (wv_blk V c t) (w1_blk V c t) (b1_blk V c t) (w2_blk V c t) (b2_blk V c t)
  · exact feat_blk V c t _ _ hr rfl
  · exact pair_blk V c t _ _ hr rfl

/-! ## The cover, and the array -/

/-- An index of the output array is in point t's block iff each coordinate is in the block's range on its axis. -/
theorem mem_blk (t : Fin cfg1.N) (i : S1000000x128.Idx) :
    i ∈ ((cfg1.win 7).blk t).view.set ↔ ∀ a : Fin 2, win1_7.index t a * S8000x128.size a ≤ (i a).val ∧ (i a).val < win1_7.index t a * S8000x128.size a + S8000x128.size a := by
  show i ∈ ((View.whole main_v26).slice (win1_7.rect t)).set ↔ _
  rw [View.set_slice_whole, Rect.mem_set_unit]
  exact Iff.rfl

/-- Row n lies in the block of point n / 8000. -/
theorem cover (i : S1000000x128.Idx) :
    ∃ t : Fin cfg1.N, (cfg1.win 7).flush t = true ∧ i ∈ ((cfg1.win 7).blk t).view.set := by
  have hi0 : (i 0).val < 1000000 := (i 0).isLt
  have hi1 : (i 1).val < 128 := (i 1).isLt
  have hN : grid1.N = 125 := N_1
  have ht : (i 0).val / 8000 < grid1.N := by omega
  obtain ⟨-, -, -, -, -, -, -, -, -, -, -, -, -, -, e0, e1⟩ := idx_facts ⟨(i 0).val / 8000, ht⟩
  refine ⟨⟨(i 0).val / 8000, ht⟩, flush1_7 _, ?_⟩
  rw [mem_blk]
  intro a
  match a with
  | ⟨0, _⟩ =>
    show win1_7.index ⟨(i 0).val / 8000, ht⟩ (0 : Fin 2) * 8000 ≤ (i 0).val ∧ (i 0).val < win1_7.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_7.index ⟨(i 0).val / 8000, ht⟩ (1 : Fin 2) * 128 ≤ (i 1).val ∧ (i 1).val < win1_7.index ⟨(i 0).val / 8000, ht⟩ (1 : Fin 2) * 128 + 128
    rw [e1]; omega

/-- THE OUTPUT ARRAY after the region is the whole-array function. -/
theorem arr_eq (c : Dev nD) : (dat1 V c).arrAt 7 cfg1.N = outArr V c :=
  (dat1 V c).arrAt_eq_of_cover 7 (outArr V c) (fun t _ => flushed_eq V c t) cover

/-- Entry (n, j) of the output array after the region is region B's result at (n, j) of the arrays the region finds. -/
theorem arr_out (c : Dev nD) (n : Fin 1000000) (j : Fin 128) :
    ((dat1 (F := Ideal) V c).arrAt 7 cfg1.N : S1000000x128.Idx → EReal) (ix2 n j)
      = Spec.outElt (V c main_arg0) (V c main_v25) (V c main_arg6) (V c main_arg7) (V c main_v9) (V c main_arg9) (V c main_v10) n j :=
  congrFun (arr_eq V c) (ix2 n j)

end Cert.KernelIdeal.OutValue

end
-- ==== Proof.KGlue.lean ====
/-
  The host operations that join the kernel program's regions, read at an index at the ideal instance: the gather of
  a flat array at a column of start indices, the accumulating scatter into a flat array, the index normalisation
  `select (b < 0) (b + 10000) b`, the concatenate of two columns, and the small layout operations between them.

  A gather's start index is read signed and clamped into [0, size − slice size], so with slice size 1 on an axis of
  10000 the row read is `min idx.toNat 9999`. A scatter's start index is read signed and not clamped: an update whose
  index leaves [0, 10000) is dropped, so the closed form of the scatter is stated under the hypothesis that every index
  is in range, and then update m lands at entry `idx m`.
-/
import proofs.«107950_j44057774522738_2_alg».proof.KernelIdeal
import Idealize.ShloMosaic.Lib.ValueIdx
import Idealize.ShloMosaic.Lib.IdealHost
import Idealize.ShloMosaic.Lib.Affine
import Idealize.ShloMosaic.Lib.Pipeline.Value
import Idealize.ShloMosaic.Lib.ValueLayout

noncomputable section

open scoped BigOperators

namespace Cert.KernelIdeal.Glue

open Idealize.ShloMosaic Idealize.ShloMosaic.ValueIdx Cert.KernelIdeal

/-! ## Lemmas over any extent -/

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} [Fintype (⟨1, ![n]⟩ : Shape).Idx]
    (f : (⟨1, ![n]⟩ : Shape).Idx → M) : ∑ j, f j = ∑ a : Fin n, f (ix1 a) :=
  (Equiv.sum_comp (idxEquiv1 (n := n)).symm f).symm

/-- Two rank-1 indices with the same coordinate are the same index. -/
theorem ix1_inj {n : Nat} {a b : Fin n} (h : ix1 a = ix1 b) : a = b := congrFun h 0

/-- `select (b < 0) (b + c) b` — what `x[idx]` lowers a possibly negative index to — is `b` wherever every word of
    `b`, read signed, is at least 0: the comparison's bit is 0 at every index, and the select reads its third operand. -/
theorem normalise_of_nonneg {S : Shape} (hb : S_.BroadcastsInDim S (![] : Fin 0 → Fin S.rank)) (b : IVec S 32) (c : BitVec 32)
    (h : ∀ i, 0 ≤ (b i).toInt) :
    select (cmpi .slt b (broadcastInDim S ![] hb (constantI S_ 32 0#32)))
      (addi b (broadcastInDim S ![] hb (constantI S_ 32 c))) b = b := by
  funext i
  rw [select_apply]
  have hc : cmpi .slt b (broadcastInDim S ![] hb (constantI S_ 32 0#32)) i = 0#1 := by
    refine eq_zero_of_ne_one fun h1 => ?_
    have h2 : IntOp.cmpi .slt (b i) (broadcastInDim S ![] hb (constantI S_ 32 0#32) i) = 1#1 := h1
    rw [broadcastInDim_scalar_apply] at h2
    have h3 : (b i).toInt < (0#32 : BitVec 32).toInt := IntOp.cmpi_slt.1 h2
    have z : (0#32 : BitVec 32).toInt = 0 := by decide
    have := h i
    omega
  rw [hc, select_zero]

/-- Two `[m, 1]` columns concatenated along axis 1 into `[m, 2]`: column 0 is the first operand … -/
theorem concat_cols_left {α : Type} {m : Nat}
    (h : Shape.Concatenates [(⟨2, ![m, 1]⟩ : Shape), ⟨2, ![m, 1]⟩] ⟨2, ![m, 2]⟩ 1)
    (a b : (⟨2, ![m, 1]⟩ : Shape).Idx → α) (n : Fin m) :
    concatenate ⟨2, ![m, 2]⟩ 1 [⟨⟨2, ![m, 1]⟩, a⟩, ⟨⟨2, ![m, 1]⟩, b⟩] h (ix2 n (0 : Fin 2)) = a (ix2 n (0 : Fin 1)) :=
  concatenate_pair_apply_left 1 a b h (ix2 n (0 : Fin 2)) rfl (ix2 n (0 : Fin 1)) (by
    intro c
    match c with
    | ⟨0, _⟩ => rfl
    | ⟨1, _⟩ => rfl)

/-- … and column 1 the second. -/
theorem concat_cols_right {α : Type} {m : Nat}
    (h : Shape.Concatenates [(⟨2, ![m, 1]⟩ : Shape), ⟨2, ![m, 1]⟩] ⟨2, ![m, 2]⟩ 1)
    (a b : (⟨2, ![m, 1]⟩ : Shape).Idx → α) (n : Fin m) :
    concatenate ⟨2, ![m, 2]⟩ 1 [⟨⟨2, ![m, 1]⟩, a⟩, ⟨⟨2, ![m, 1]⟩, b⟩] h (ix2 n (1 : Fin 2)) = b (ix2 n (0 : Fin 1)) :=
  concatenate_pair_apply_right 1 a b h (ix2 n (1 : Fin 2)) rfl rfl (ix2 n (0 : Fin 1))
    (by
      intro c hc
      match c with
      | ⟨0, _⟩ => rfl
      | ⟨1, _⟩ => exact absurd rfl hc)
    rfl

/-- An `[m]` array broadcast along axis 0 into an `[m, 1]` column reads, at `(n, z)`, the operand at `n`. -/
theorem broadcastInDim_col_apply {α : Type} {m : Nat}
    (h : (⟨1, ![m]⟩ : Shape).BroadcastsInDim ⟨2, ![m, 1]⟩ ![0]) (y : (⟨1, ![m]⟩ : Shape).Idx → α) (n : Fin m) (z : Fin 1) :
    broadcastInDim ⟨2, ![m, 1]⟩ ![0] h y (ix2 n z) = y (ix1 n) := by
  refine broadcastInDim_apply ![0] h y (ix2 n z) (ix1 n) ?_
  intro a
  match a with
  | ⟨0, _⟩ =>
    show n.val = if m = 1 then 0 else n.val
    split
    · have := n.isLt; omega
    · rfl

/-- An `[m, 1]` column reshaped to `[m]` reads, at `n`, the operand at `(n, 0)`. -/
theorem shapeCast_a1_a_apply {α : Type} {m : Nat} (x : (⟨2, ![m, 1]⟩ : Shape).Idx → α)
    (h : (⟨2, ![m, 1]⟩ : Shape).ShapeCasts ⟨1, ![m]⟩) (n : Fin m) :
    shapeCast ⟨1, ![m]⟩ x h (ix1 n) = x (ix2 n (0 : Fin 1)) :=
  shapeCast_apply x h _ _ (by
    rw [Shape.rowMajor_val_two, Shape.rowMajor_val_one]
    show n.val * 1 + 0 = n.val
    omega)

section
variable [Facts₀]
open Facts₀

/-! ## K1 — the gather of a flat array -/

/-- The start-indices index the gather reads for result index n: row n of the one column. -/
theorem gather_siIdx (n : Fin 1000000) (c : Fin gather_S10000_S1000000x1_S1000000_n_0_n_n_0_1_1.startIndexMap.length) :
    gather_S10000_S1000000x1_S1000000_n_0_n_n_0_1_1.siIdx (ix1 n) c = ix2 n (0 : Fin 1) := by
  funext b; refine Fin.ext ?_
  match b with
  | ⟨0, _⟩ => rfl
  | ⟨1, _⟩ =>
    show c.val = 0
    have := c.isLt
    have hl : gather_S10000_S1000000x1_S1000000_n_0_n_n_0_1_1.startIndexMap.length = 1 := rfl
    omega

/-- THE GATHER READ AT n: the operand at the start index `idx[n, 0]`, read signed and clamped into [0, 9999]. -/
theorem gather_apply {α : Type} (x : S10000.Idx → α) (idx : IVec S1000000x1 32) (n : Fin 1000000) :
    Host.gather gather_S10000_S1000000x1_S1000000_n_0_n_n_0_1_1 x idx (ix1 n)
      = x (ix1 ⟨min (idx (ix2 n (0 : Fin 1))).toInt.toNat 9999, by omega⟩) := by
  unfold Host.gather
  congr 1
  funext a
  obtain rfl : a = 0 := Subsingleton.elim _ _
  refine Fin.ext ?_
  show gather_S10000_S1000000x1_S1000000_n_0_n_n_0_1_1.start (ix1 n) idx 0
      + gather_S10000_S1000000x1_S1000000_n_0_n_n_0_1_1.batchCoord (ix1 n) 0
      + gather_S10000_S1000000x1_S1000000_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10000_S1000000x1_S1000000_n_0_n_n_0_1_1.startIndexMap from
    List.mem_singleton.mpr rfl), gather_siIdx]
  rfl

/-! ## K2 — the accumulating scatter into a flat array -/

/-- The scatter-indices index the scatter reads for update index m: row m of the one column. -/
theorem scatter_siIdx (m : Fin 1000000) (c : Fin scatter_S10000_S1000000x1_S1000000_n_0_0_1.scatterDimsToOperandDims.length) :
    scatter_S10000_S1000000x1_S1000000_n_0_0_1.siIdx (ix1 m) c = ix2 m (0 : Fin 1) := by
  funext b; refine Fin.ext ?_
  match b with
  | ⟨0, _⟩ => rfl
  | ⟨1, _⟩ =>
    show c.val = 0
    have := c.isLt
    have hl : scatter_S10000_S1000000x1_S1000000_n_0_0_1.scatterDimsToOperandDims.length = 1 := rfl
    omega

/-- The window's start for update m is the word `idx[m, 0]` read signed (not clamped) … -/
theorem scatter_start (idx : IVec S1000000x1 32) (m : Fin 1000000) :
    scatter_S10000_S1000000x1_S1000000_n_0_0_1.start (ix1 m) idx 0 = (idx (ix2 m (0 : Fin 1))).toInt := by
  unfold ScatterDims.start
  rw [dif_pos (show (0 : Fin 1) ∈ scatter_S10000_S1000000x1_S1000000_n_0_0_1.scatterDimsToOperandDims from
    List.mem_singleton.mpr rfl), scatter_siIdx]

/-- … and its window coordinate is 0: the operand's one axis is an inserted window axis. -/
theorem scatter_window (m : Fin 1000000) : scatter_S10000_S1000000x1_S1000000_n_0_0_1.window (ix1 m) 0 = 0 := by
  unfold ScatterDims.window
  have hk : (0 : Fin S10000.rank) ∉ scatter_S10000_S1000000x1_S1000000_n_0_0_1.sKept :=
    (show (0 : Fin S10000.rank) ∉ S10000.kept [(0 : Fin S10000.rank)] by decide)
  rw [dif_neg hk]

/-- WHERE UPDATE m LANDS: with its index in [0, 10000) read signed, at entry `idx[m, 0]` — so it lands at g exactly
    when that word, as a natural number, is g. -/
theorem scatter_lands (idx : IVec S1000000x1 32) (m : Fin 1000000) (g : Fin 10000)
    (h0 : 0 ≤ (idx (ix2 m (0 : Fin 1))).toInt) (h1 : (idx (ix2 m (0 : Fin 1))).toInt < 10000) :
    scatter_S10000_S1000000x1_S1000000_n_0_0_1.resultIdx? (ix1 m) idx = some (ix1 g)
      ↔ (idx (ix2 m (0 : Fin 1))).toInt.toNat = g.val := by
  have hsw : ∀ a : Fin S10000.rank, scatter_S10000_S1000000x1_S1000000_n_0_0_1.start (ix1 m) idx a
      + (scatter_S10000_S1000000x1_S1000000_n_0_0_1.window (ix1 m) a : Int) = (idx (ix2 m (0 : Fin 1))).toInt := by
    intro a
    obtain rfl : a = 0 := Subsingleton.elim _ _
    rw [scatter_start, scatter_window]; simp
  have hall : ∀ a : Fin S10000.rank, 0 ≤ scatter_S10000_S1000000x1_S1000000_n_0_0_1.start (ix1 m) idx a
        + (scatter_S10000_S1000000x1_S1000000_n_0_0_1.window (ix1 m) a : Int)
      ∧ scatter_S10000_S1000000x1_S1000000_n_0_0_1.start (ix1 m) idx a
        + (scatter_S10000_S1000000x1_S1000000_n_0_0_1.window (ix1 m) a : Int) < (S10000.size a : Int) := by
    intro a
    rw [hsw a]
    obtain rfl : a = 0 := Subsingleton.elim _ _
    exact ⟨h0, h1⟩
  unfold ScatterDims.resultIdx?
  rw [dif_pos hall]
  constructor
  · intro h
    have e := congrArg Fin.val (congrFun (Option.some.inj h) 0)
    have e' : (scatter_S10000_S1000000x1_S1000000_n_0_0_1.start (ix1 m) idx 0
      + (scatter_S10000_S1000000x1_S1000000_n_0_0_1.window (ix1 m) 0 : Int)).toNat = g.val := e
    rwa [hsw 0] at e'
  · intro h
    refine congrArg some (funext fun a => Fin.ext ?_)
    obtain rfl : a = 0 := Subsingleton.elim _ _
    show (scatter_S10000_S1000000x1_S1000000_n_0_0_1.start (ix1 m) idx 0
      + (scatter_S10000_S1000000x1_S1000000_n_0_0_1.window (ix1 m) 0 : Int)).toNat = g.val
    rw [hsw 0]; exact h

/-- THE SCATTER-ADD READ AT g, every index in range: the operand's entry plus the updates whose index is g. -/
theorem scatterAdd_apply (x : FVec Ideal S10000 .f32) (idx : IVec S1000000x1 32) (u : FVec Ideal S1000000 .f32) (g : Fin 10000)
    (hin : ∀ m : Fin 1000000, 0 ≤ (idx (ix2 m (0 : Fin 1))).toInt ∧ (idx (ix2 m (0 : Fin 1))).toInt < 10000) :
    Host.scatterAdd scatter_S10000_S1000000x1_S1000000_n_0_0_1 x idx u (ix1 g)
      = x (ix1 g) + ∑ m : Fin 1000000, if (idx (ix2 m (0 : Fin 1))).toInt.toNat = g.val then u (ix1 m) else 0 := by
  unfold Host.scatterAdd
  rw [Ideal.hostScatterAdd_def]
  unfold Ideal.hostScatterAdd
  refine congrArg (x (ix1 g) + ·) ?_
  rw [Finset.sum_filter, sum_idx1]
  exact Finset.sum_congr rfl fun m _ => if_congr (scatter_lands idx m g (hin m).1 (hin m).2) rfl rfl

/-! ## K3 — the index normalisation is the identity on words that are not negative -/

/-- The normalisation as the program spells it, on the index array of 1000000 words against the extent 10000. -/
theorem normalise_apply (b : IVec S1000000 32) (h : ∀ i, 0 ≤ (b i).toInt) :
    select (cmpi .slt b (broadcastInDim S1000000 ![] bcast_S_S1000000 (constantI S_ 32 0#32)))
      (addi b (broadcastInDim S1000000 ![] bcast_S_S1000000 (constantI S_ 32 10000#32))) b = b :=
  normalise_of_nonneg bcast_S_S1000000 b 10000#32 h

/-! ## K4 — two columns joined along axis 1 -/

/-- The program's concatenate at `(n, 0)`: the first operand at `(n, 0)`. -/
theorem concatenate_apply_zero {α : Type} (a b : S1000000x1.Idx → α) (n : Fin 1000000) :
    concatenate S1000000x2 1 [⟨S1000000x1, a⟩, ⟨S1000000x1, b⟩] concatenates_S1000000x1_S1000000x1_S1000000x2_d1
      (ix2 n (0 : Fin 2)) = a (ix2 n (0 : Fin 1)) :=
  concat_cols_left concatenates_S1000000x1_S1000000x1_S1000000x2_d1 a b n

/-- The program's concatenate at `(n, 1)`: the second operand at `(n, 0)`. -/
theorem concatenate_apply_one {α : Type} (a b : S1000000x1.Idx → α) (n : Fin 1000000) :
    concatenate S1000000x2 1 [⟨S1000000x1, a⟩, ⟨S1000000x1, b⟩] concatenates_S1000000x1_S1000000x1_S1000000x2_d1
      (ix2 n (1 : Fin 2)) = b (ix2 n (0 : Fin 1)) :=
  concat_cols_right concatenates_S1000000x1_S1000000x1_S1000000x2_d1 a b n

/-! ## K5 — the small layout operations -/

/-- The program's broadcast of the flat `[1000000]` array into a column, at `(n, 0)`. -/
theorem broadcastInDim_S1000000x1_apply {α : Type} (y : S1000000.Idx → α) (n : Fin 1000000) :
    broadcastInDim S1000000x1 ![0] bcast_S1000000_S1000000x1_0 y (ix2 n (0 : Fin 1)) = y (ix1 n) :=
  broadcastInDim_col_apply bcast_S1000000_S1000000x1_0 y n 0

/-- The program's reshape `[1000000, 1] → [1000000]` at `n`. -/
theorem shapeCast_S1000000x1_S1000000_apply {α : Type} (x : S1000000x1.Idx → α) (n : Fin 1000000) :
    shapeCast S1000000 x shapeCasts_S1000000x1_S1000000 (ix1 n) = x (ix2 n (0 : Fin 1)) :=
  shapeCast_a1_a_apply x shapeCasts_S1000000x1_S1000000 n

/-- The program's reshape `[128] → [1, 128]` at `(0, j)`. -/
theorem shapeCast_S128_S1x128_apply {α : Type} (x : S128.Idx → α) (j : Fin 128) :
    shapeCast S1x128 x shapeCasts_S128_S1x128 (ix2 (0 : Fin 1) j) = x (ix1 j) :=
  ValueIdx.shapeCast_a_1a_apply x shapeCasts_S128_S1x128 0 j

end

end Cert.KernelIdeal.Glue

end
-- ==== Proof.SpecR.lean ====
/-
  The two programs' whole results as functions of the eleven argument arrays, entry by entry, over the extended reals.

  Node n belongs to graph g(n) (its batch word read signed, clamped into [0, 9999]); its charge is c = charge[g(n)].
  The attention logit a(n) = softplus(scale · Σ_j q(n,j)·k(c,j)); the graph's total is Σ over the nodes m whose batch word
  is that graph of a(m), added to the zero the scatter starts from. The reference divides a(n)·v(c,j) by the total; the
  kernel multiplies the quotient a(n)/total by v(c,j). Both then add the two-layer network of that vector and the input.
  `outR` is the reference's spelling, `outK` the kernel's (over `Cert.Spec.attnRow` / `Cert.Spec.outElt`).
-/
import proofs.«107950_j44057774522738_2_alg».proof.Proof.Spec

noncomputable section

namespace Cert.Spec

open Idealize.ShloMosaic Idealize.ShloMosaic.ValueIdx

abbrev SN : Shape := ⟨1, ![1000000]⟩
abbrev SG : Shape := ⟨1, ![10000]⟩
abbrev SD : Shape := ⟨1, ![128]⟩

/-- The graph of node n: its batch word read signed and clamped into the graph range. -/
def gi (batch : SN.Idx → BitVec 32) (n : Fin 1000000) : Fin 10000 :=
  ⟨min (batch (ix1 n)).toInt.toNat 9999, by omega⟩

/-- The total of a per-node quantity over the nodes whose batch word is graph g, from the zero word. -/
def segsum (batch : SN.Idx → BitVec 32) (a : Fin 1000000 → EReal) (g : Fin 10000) : EReal :=
  zF + ∑ m : Fin 1000000, if (batch (ix1 m)).toInt.toNat = g.val then a m else 0

/-! ## The reference's spelling -/

/-- The positive part of the opposite, spelt with a negation. -/
def nR (c : EReal) : EReal := max (-c) zF

def kR (c : EReal) (wk : S2xD.Idx → EReal) (j : Fin 128) : EReal :=
  Ideal.div (relu c) (max (relu c) oneF) * wk (ix2 0 j) + Ideal.div (nR c) (max (nR c) oneF) * wk (ix2 1 j)

def vR (c : EReal) (wv : S2xD.Idx → EReal) (j : Fin 128) : EReal :=
  relu c * wv (ix2 0 j) + nR c * wv (ix2 1 j)

def qR (ns : SNx128.Idx → EReal) (wq : SDxD.Idx → EReal) (bq : SD.Idx → EReal) (n : Fin 1000000) (j : Fin 128) : EReal :=
  (∑ k : Fin 128, ns (ix2 n k) * wq (ix2 k j)) + bq (ix1 j)

/-- The reference's guarded softplus: the guard is the unordered-or-unequal test, the exponent a negation. -/
def softplusR (z : EReal) : EReal :=
  Scalar.select (Ideal.cmp .une (z - zF) (z - zF)) (z + zF)
    (max z zF + Ideal.log1p (Ideal.exp (-(max (z - zF) (-(z - zF))))))

def attnR (ns : SNx128.Idx → EReal) (charge : SG.Idx → EReal) (batch : SN.Idx → BitVec 32) (wq : SDxD.Idx → EReal)
    (bq : SD.Idx → EReal) (wk : S2xD.Idx → EReal) (n : Fin 1000000) : EReal :=
  softplusR ((zF + ∑ j : Fin 128, qR ns wq bq n j * kR (charge (ix1 (gi batch n))) wk j) * scaleF)

/-- z · (1 / (1 + exp(−z))) with the one word. -/
def siluR (z : EReal) : EReal := z * Ideal.div oneF (oneF + Ideal.exp (-z))

def mlpR (x : Fin 128 → EReal) (w1 : SDxD.Idx → EReal) (b1 : SD.Idx → EReal) (w2 : SDxD.Idx → EReal)
    (b2 : SD.Idx → EReal) (j : Fin 128) : EReal :=
  siluR ((∑ k : Fin 128, siluR ((∑ l : Fin 128, x l * w1 (ix2 l k)) + b1 (ix1 k)) * w2 (ix2 k j)) + b2 (ix1 j))

/-- The reference's update vector: (a(n) · v) / total. -/
def xR (ns : SNx128.Idx → EReal) (charge : SG.Idx → EReal) (batch : SN.Idx → BitVec 32) (wq : SDxD.Idx → EReal)
    (bq : SD.Idx → EReal) (wk wv : S2xD.Idx → EReal) (n : Fin 1000000) (j : Fin 128) : EReal :=
  Ideal.div (attnR ns charge batch wq bq wk n * vR (charge (ix1 (gi batch n))) wv j)
    (segsum batch (attnR ns charge batch wq bq wk) (gi batch n))

/-- Entry (n, j) of the reference's result. -/
def outR (ns : SNx128.Idx → EReal) (charge : SG.Idx → EReal) (batch : SN.Idx → BitVec 32) (wq : SDxD.Idx → EReal)
    (bq : SD.Idx → EReal) (wk wv : S2xD.Idx → EReal) (w1 : SDxD.Idx → EReal) (b1 : SD.Idx → EReal) (w2 : SDxD.Idx → EReal)
    (b2 : SD.Idx → EReal) (n : Fin 1000000) (j : Fin 128) : EReal :=
  ns (ix2 n j) + (xR ns charge batch wq bq wk wv n j + mlpR (xR ns charge batch wq bq wk wv n) w1 b1 w2 b2 j)

end Cert.Spec

end
-- ==== Proof.KGlueRead.lean ====
/-
  The host operations between the two regions, read entry by entry at the ideal instance, for batch words in the
  graph range [0, 10000).

  With every batch word non-negative the index normalisation leaves the words as they are, so the gather's start column
  is the batch words themselves and node n reads row g(n) = min (word n) 9999 of what it gathers from.  Hence:
  the node's charge is charge[g(n)]; the packed pair's first component is the charge column's entry; its second is the
  node's logit divided by the total of its graph — the logits scatter-added by batch word into zeros (every word in
  range, so every update lands), read back at g(n); and a vector recast to one row keeps its entries.
-/
import proofs.«107950_j44057774522738_2_alg».proof.Proof.KHostB
import proofs.«107950_j44057774522738_2_alg».proof.Proof.KGlue
import proofs.«107950_j44057774522738_2_alg».proof.Proof.SpecR

noncomputable section

open scoped BigOperators

namespace Cert.KernelIdeal.GlueRead

open Cert.KernelIdeal Cert.KernelIdeal.Gen Cert.KernelIdeal.KHost
open Idealize.ShloMosaic Idealize.ShloMosaic.ValueIdx

/-- Every batch word is non-negative, as a statement over the array's own indices. -/
theorem nonneg_of_range (b : IVec S1000000 32)
    (hin : ∀ n : Fin 1000000, 0 ≤ (b (ix1 n)).toInt ∧ (b (ix1 n)).toInt < 10000) : ∀ i : S1000000.Idx, 0 ≤ (b i).toInt :=
  fun i => (congrArg (fun j => 0 ≤ (b j).toInt) (eq_ix1 i)).mpr (hin (i 0)).1

/-- With no negative word the gather's start column is the batch words laid out as one column. -/
theorem idxOf_eq (b : IVec S1000000 32)
    (hin : ∀ n : Fin 1000000, 0 ≤ (b (ix1 n)).toInt ∧ (b (ix1 n)).toInt < 10000) :
    idxOf b = broadcastInDim S1000000x1 ![0] bcast_S1000000_S1000000x1_0 b := by
  unfold idxOf
  rw [Glue.normalise_apply b (nonneg_of_range b hin)]

/-- … so its entry of row n is node n's batch word. -/
theorem idxOf_apply (b : IVec S1000000 32)
    (hin : ∀ n : Fin 1000000, 0 ≤ (b (ix1 n)).toInt ∧ (b (ix1 n)).toInt < 10000) (n : Fin 1000000) :
    idxOf b (ix2 n (0 : Fin 1)) = b (ix1 n) := by
  rw [idxOf_eq b hin, Glue.broadcastInDim_S1000000x1_apply]

/-- The row a gather at the start column reads for node n is the node's graph. -/
theorem row_eq_gi (b : IVec S1000000 32)
    (hin : ∀ n : Fin 1000000, 0 ≤ (b (ix1 n)).toInt ∧ (b (ix1 n)).toInt < 10000) (n : Fin 1000000) :
    (⟨min (idxOf b (ix2 n (0 : Fin 1))).toInt.toNat 9999, by omega⟩ : Fin 10000) = Cert.Spec.gi b n :=
  Fin.ext (by
    show min (idxOf b (ix2 n (0 : Fin 1))).toInt.toNat 9999 = min (b (ix1 n)).toInt.toNat 9999
    rw [idxOf_apply b hin n])

/-- G1. Node n's charge is the charge of its graph. -/
theorem chargeNode_apply (charge : FVec Ideal S10000 .f32) (b : IVec S1000000 32)
    (hin : ∀ n : Fin 1000000, 0 ≤ (b (ix1 n)).toInt ∧ (b (ix1 n)).toInt < 10000) (n : Fin 1000000) :
    chargeNode charge b (ix2 n (0 : Fin 1)) = charge (ix1 (Cert.Spec.gi b n)) := by
  unfold chargeNode
  rw [Glue.broadcastInDim_S1000000x1_apply, Glue.gather_apply, row_eq_gi b hin n]

/-- The graph totals: the logits scatter-added by batch word into the zero splat, at graph g. -/
theorem total_apply (attn : FVec Ideal S1000000x1 .f32) (b : IVec S1000000 32)
    (hin : ∀ n : Fin 1000000, 0 ≤ (b (ix1 n)).toInt ∧ (b (ix1 n)).toInt < 10000) (g : Fin 10000) :
    Host.scatterAdd scatter_S10000_S1000000x1_S1000000_n_0_0_1
        (broadcastInDim S10000 ![] bcast_S_S10000 (constant (F := Ideal) S_ .f32 0x00000000#32))
        (broadcastInDim S1000000x1 ![0] bcast_S1000000_S1000000x1_0 b)
        (shapeCast S1000000 attn shapeCasts_S1000000x1_S1000000) (ix1 g)
      = Cert.Spec.segsum b (fun m => attn (ix2 m (0 : Fin 1))) g := by
  rw [Glue.scatterAdd_apply _ _ _ g (fun m => by rw [Glue.broadcastInDim_S1000000x1_apply]; exact hin m)]
  unfold Cert.Spec.segsum
  refine congrArg₂ (· + ·) ?_ (Finset.sum_congr rfl fun m _ => ?_)
  · rw [broadcastInDim_scalar_apply]; rfl
  · rw [Glue.broadcastInDim_S1000000x1_apply, Glue.shapeCast_S1000000x1_S1000000_apply]

/-- G2. The packed pair's first component is the charge column's entry. -/
theorem pairOf_apply_zero (cn attn : FVec Ideal S1000000x1 .f32) (b : IVec S1000000 32) (n : Fin 1000000) :
    pairOf cn attn b (ix2 n (0 : Fin 2)) = cn (ix2 n (0 : Fin 1)) := by
  unfold pairOf
  exact Glue.concatenate_apply_zero _ _ n

/-- G3. The packed pair's second component is the node's logit over its graph's total. -/
theorem pairOf_apply_one (cn attn : FVec Ideal S1000000x1 .f32) (b : IVec S1000000 32)
    (hin : ∀ n : Fin 1000000, 0 ≤ (b (ix1 n)).toInt ∧ (b (ix1 n)).toInt < 10000) (n : Fin 1000000) :
    pairOf cn attn b (ix2 n (1 : Fin 2))
      = Ideal.div (attn (ix2 n (0 : Fin 1))) (Cert.Spec.segsum b (fun m => attn (ix2 m (0 : Fin 1))) (Cert.Spec.gi b n)) := by
  unfold pairOf
  rw [Glue.concatenate_apply_one, Glue.broadcastInDim_S1000000x1_apply, hostDivf_apply,
    Glue.shapeCast_S1000000x1_S1000000_apply, Glue.gather_apply, row_eq_gi b hin n, total_apply attn b hin]

/-- G4. A vector recast to one row keeps its entries. -/
theorem rowOf_apply (v : FVec Ideal S128 .f32) (j : Fin 128) : rowOf v (ix2 (0 : Fin 1) j) = v (ix1 j) := by
  unfold rowOf
  exact Glue.shapeCast_S128_S1x128_apply v j

end Cert.KernelIdeal.GlueRead

end
-- ==== Proof.Bridge.lean ====
/-
  The two spellings of the result agree, entry by entry, on finite inputs with every batch word a graph number.

  The attention logit is the same extended real in both (the guard of the softplus never fires: nothing is unequal to
  itself; 0 − y is −y; a sum from the zero word is the sum). On finite node features, weights and charges its argument
  is a real, so the logit is a POSITIVE real: max z 0 + log(1 + e^{−|z|}). A graph's total is then a real at least the
  logit of any of its nodes, hence nonzero, and division by it is multiplication by its inverse:
  (a · σ⁻¹) · v = (a · v) · σ⁻¹ by commutativity and associativity alone. The rest is the same network of the same vector,
  and (ns + x) + h = ns + (x + h).
-/
import proofs.«107950_j44057774522738_2_alg».proof.Proof.SpecR
import Idealize.ShloMosaic.Lib.IdealHost
import Idealize.ShloMosaic.PureOps.Ideal.Laws

noncomputable section

namespace Cert.Spec

open Idealize.ShloMosaic Idealize.ShloMosaic.ValueIdx

theorem zF_eq : zF = 0 := Ideal.ofBits_zero_f32
theorem oneF_eq : oneF = 1 := Ideal.ofBits_one_f32

theorem coe_max' (a b : ℝ) : ((Max.max a b : ℝ) : EReal) = Max.max (a : EReal) (b : EReal) :=
  EReal.coe_strictMono.monotone.map_max

/-- An extended real that is a real. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.max {x y : EReal} (hx : IsR x) (hy : IsR y) : IsR (max x y) := by
  obtain ⟨a, rfl⟩ := hx; obtain ⟨b, rfl⟩ := hy; exact ⟨Max.max a b, (coe_max' a b).symm⟩
theorem IsR.zero : IsR 0 := ⟨0, rfl⟩
theorem IsR.one : IsR 1 := ⟨1, rfl⟩
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

theorem nrelu_eq (c : EReal) : nrelu c = nR c := by unfold nrelu nR; rw [zF_eq, zero_sub]

theorem softplusK_eq (z : EReal) : softplusK z = softplusR z := by
  unfold softplusK softplusR
  rw [zF_eq, zero_sub]
  rfl

theorem siluK_eq (z : EReal) : siluK z = siluR z := by
  unfold siluK siluR Ideal.logistic
  rw [oneF_eq]

theorem IsR.coe (r : ℝ) : IsR (r : EReal) := ⟨r, rfl⟩

theorem relu_real {c : EReal} (h : IsR c) : IsR (relu c) := by
  unfold relu; rw [zF_eq]; exact h.max IsR.zero
theorem nR_real {c : EReal} (h : IsR c) : IsR (nR c) := by
  unfold nR; rw [zF_eq]; exact h.neg.max IsR.zero

/-- p / max p 1 of a real is a real: the denominator is a real at least one. -/
theorem ratio_real {p : EReal} (h : IsR p) : IsR (Ideal.div p (max p oneF)) := by
  obtain ⟨r, rfl⟩ := h
  rw [oneF_eq, show (1 : EReal) = ((1 : ℝ) : EReal) from rfl, ← coe_max',
    Ideal.div_coe (ne_of_gt (lt_of_lt_of_le one_pos (le_max_right r 1)))]
  exact (IsR.coe r).mul (IsR.coe _)

theorem kR_real {c : EReal} (hc : IsR c) (wk : S2xD.Idx → EReal) (hwk : ∀ i, IsR (wk i)) (j : Fin 128) : IsR (kR c wk j) := by
  unfold kR
  exact ((ratio_real (relu_real hc)).mul (hwk _)).add ((ratio_real (nR_real hc)).mul (hwk _))

theorem qR_real (ns : SNx128.Idx → EReal) (wq : SDxD.Idx → EReal) (bq : SD.Idx → EReal) (hns : ∀ i, IsR (ns i))
    (hwq : ∀ i, IsR (wq i)) (hbq : ∀ i, IsR (bq i)) (n : Fin 1000000) (j : Fin 128) : IsR (qR ns wq bq n j) := by
  unfold qR
  exact (IsR.sum _ _ fun k _ => (hns _).mul (hwq _)).add (hbq _)

/-- The word of the scale is a real. -/
theorem scaleF_real : IsR scaleF := by
  unfold scaleF IsR
  simp [Ideal.ofBits, Ideal.ieee, -EReal.coe_mul]

/-- The guarded softplus of a real is a positive real: max r 0 + log(1 + e^{−|r|}). -/
theorem softplusR_pos (r : ℝ) : ∃ s : ℝ, 0 < s ∧ softplusR (r : EReal) = (s : EReal) := by
  refine ⟨Max.max r 0 + Real.log (1 + Real.exp (-(Max.max r (-r)))), ?_, ?_⟩
  · have h1 : 0 < Real.log (1 + Real.exp (-(Max.max r (-r)))) :=
      Real.log_pos (by have := Real.exp_pos (-(Max.max r (-r))); linarith)
    have h2 : 0 ≤ Max.max r 0 := le_max_right r 0
    linarith
  · unfold softplusR
    rw [zF_eq, sub_zero]
    have hc : Ideal.cmp .une (r : EReal) (r : EReal) = 0#1 := by simp [Ideal.cmp]
    rw [hc]
    show (max (r : EReal) 0 + Ideal.log1p (Ideal.exp (-(max (r : EReal) (-(r : EReal)))))) = _
    rw [← EReal.coe_neg, ← coe_max', ← EReal.coe_neg]
    show max (r : EReal) ((0 : ℝ) : EReal) + Ideal.log (1 + ((Real.exp (-(Max.max r (-r))) : ℝ) : EReal)) = _
    rw [← coe_max', show (1 : EReal) = ((1 : ℝ) : EReal) from rfl, ← EReal.coe_add]
    have hpos : ¬ (1 + Real.exp (-(Max.max r (-r))) ≤ 0) := by
      have := Real.exp_pos (-(Max.max r (-r))); intro h; linarith
    show ((Max.max r 0 : ℝ) : EReal) + (if 1 + Real.exp (-(Max.max r (-r))) ≤ 0 then ⊥ else ((Real.log (1 + Real.exp (-(Max.max r (-r)))) : ℝ) : EReal)) = _
    rw [if_neg hpos, ← EReal.coe_add]

/-- A finite sum of reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logit's argument is a real on finite node features, weights and charges. -/
theorem attnR_pos (ns : SNx128.Idx → EReal) (charge : SG.Idx → EReal) (batch : SN.Idx → BitVec 32) (wq : SDxD.Idx → EReal)
    (bq : SD.Idx → EReal) (wk : S2xD.Idx → EReal) (hns : ∀ i, IsR (ns i)) (hch : ∀ i, IsR (charge i))
    (hwq : ∀ i, IsR (wq i)) (hbq : ∀ i, IsR (bq i)) (hwk : ∀ i, IsR (wk i)) (n : Fin 1000000) :
    ∃ s : ℝ, 0 < s ∧ attnR ns charge batch wq bq wk n = (s : EReal) := by
  unfold attnR
  have hz : IsR ((zF + ∑ j : Fin 128, qR ns wq bq n j * kR (charge (ix1 (gi batch n))) wk j) * scaleF) := by
    refine IsR.mul (IsR.add (by rw [zF_eq]; exact IsR.zero) (IsR.sum _ _ fun j _ => ?_)) scaleF_real
    exact (qR_real ns wq bq hns hwq hbq n j).mul (kR_real (hch _) wk hwk j)
  obtain ⟨r, hr⟩ := hz
  rw [hr]
  exact softplusR_pos r

/-- A graph's total over positive real logits is a positive real for the graph of any node whose batch word names it. -/
theorem segsum_pos (batch : SN.Idx → BitVec 32) (a : Fin 1000000 → EReal) (ha : ∀ m, ∃ s : ℝ, 0 < s ∧ a m = (s : EReal))
    (g : Fin 10000) (n : Fin 1000000) (hn : (batch (ix1 n)).toInt.toNat = g.val) :
    ∃ σ : ℝ, σ ≠ 0 ∧ segsum batch a g = (σ : EReal) := by
  choose s hs0 hs using ha
  refine ⟨∑ m : Fin 1000000, (if (batch (ix1 m)).toInt.toNat = g.val then s m else 0), ?_, ?_⟩
  · refine ne_of_gt (lt_of_lt_of_le (hs0 n) ?_)
    have h1 : s n = (if (batch (ix1 n)).toInt.toNat = g.val then s n else 0) := by rw [if_pos hn]
    rw [h1]
    exact Finset.single_le_sum (f := fun m => if (batch (ix1 m)).toInt.toNat = g.val then s m else 0)
      (fun m _ => by
        show (0 : ℝ) ≤ if (batch (ix1 m)).toInt.toNat = g.val then s m else 0
        split <;> [exact le_of_lt (hs0 m); exact le_refl 0]) (Finset.mem_univ n)
  · unfold segsum
    rw [zF_eq, zero_add, coe_sum]
    refine Finset.sum_congr rfl fun m _ => ?_
    split
    · exact hs m
    · rfl

/-- Dividing by a nonzero real and multiplying commute with a further factor. -/
theorem div_mul_comm' (a v : EReal) (σ : ℝ) (hσ : σ ≠ 0) :
    Ideal.div a (σ : EReal) * v = Ideal.div (a * v) (σ : EReal) := by
  rw [Ideal.div_coe hσ, Ideal.div_coe hσ, mul_right_comm]

theorem vK_eq (c : EReal) (wv : S2xD.Idx → EReal) (j : Fin 128) : vK c wv j = vR c wv j := by
  unfold vK vR; rw [nrelu_eq]

theorem mlp_eq (x : Fin 128 → EReal) (w1 : SDxD.Idx → EReal) (b1r : S1xD.Idx → EReal) (b1 : SD.Idx → EReal)
    (w2 : SDxD.Idx → EReal) (b2r : S1xD.Idx → EReal) (b2 : SD.Idx → EReal)
    (hb1 : ∀ j, b1r (ix2 0 j) = b1 (ix1 j)) (hb2 : ∀ j, b2r (ix2 0 j) = b2 (ix1 j)) (j : Fin 128) :
    mlp x w1 b1r w2 b2r j = mlpR x w1 b1 w2 b2 j := by
  unfold mlp mlpR
  simp only [siluK_eq, hb1, hb2]

/-- The kernel's logit is the reference's. -/
theorem attn_eq (ns : SNx128.Idx → EReal) (charge : SG.Idx → EReal) (batch : SN.Idx → BitVec 32) (wq : SDxD.Idx → EReal)
    (bq : SD.Idx → EReal) (wk : S2xD.Idx → EReal) (c2 : SNx1.Idx → EReal) (bq2 : S1xD.Idx → EReal)
    (hc2 : ∀ n, c2 (ix2 n 0) = charge (ix1 (gi batch n))) (hbq : ∀ j, bq2 (ix2 0 j) = bq (ix1 j)) (n : Fin 1000000) :
    attnRow ns c2 wq bq2 wk n = attnR ns charge batch wq bq wk n := by
  unfold attnRow attnR
  rw [softplusK_eq, zF_eq, zero_add]
  refine congrArg (fun s => softplusR (s * scaleF)) (Finset.sum_congr rfl fun j _ => ?_)
  unfold qR kR ratio
  rw [hc2, hbq, nrelu_eq]

/-- THE BRIDGE: the kernel's spelling of entry (n, j) — over its operand arrays as the host glue fills them — is the
    reference's, on finite node features, charges, Wq, bq, Wk and batch words that are graph numbers. -/
theorem out_eq (ns : SNx128.Idx → EReal) (charge : SG.Idx → EReal) (batch : SN.Idx → BitVec 32) (wq : SDxD.Idx → EReal)
    (bq : SD.Idx → EReal) (wk wv : S2xD.Idx → EReal) (w1 : SDxD.Idx → EReal) (b1 : SD.Idx → EReal) (w2 : SDxD.Idx → EReal)
    (b2 : SD.Idx → EReal)
    (c2 : SNx1.Idx → EReal) (bq2 b1r b2r : S1xD.Idx → EReal) (cr : SNx2.Idx → EReal) (attn : SNx1.Idx → EReal)
    (hc2 : ∀ n, c2 (ix2 n 0) = charge (ix1 (gi batch n)))
    (hbq : ∀ j, bq2 (ix2 0 j) = bq (ix1 j)) (hb1 : ∀ j, b1r (ix2 0 j) = b1 (ix1 j)) (hb2 : ∀ j, b2r (ix2 0 j) = b2 (ix1 j))
    (hattn : ∀ n, attn (ix2 n 0) = attnRow ns c2 wq bq2 wk n)
    (hcr0 : ∀ n, cr (ix2 n 0) = charge (ix1 (gi batch n)))
    (hcr1 : ∀ n, cr (ix2 n 1) = Ideal.div (attn (ix2 n 0)) (segsum batch (fun m => attn (ix2 m 0)) (gi batch n)))
    (hns : ∀ i, IsR (ns i)) (hch : ∀ i, IsR (charge i)) (hwq : ∀ i, IsR (wq i)) (hbqr : ∀ i, IsR (bq i))
    (hwk : ∀ i, IsR (wk i))
    (hin : ∀ n, 0 ≤ (batch (ix1 n)).toInt ∧ (batch (ix1 n)).toInt < 10000) (n : Fin 1000000) (j : Fin 128) :
    outElt ns cr wv w1 b1r w2 b2r n j = outR ns charge batch wq bq wk wv w1 b1 w2 b2 n j := by
  have hA : ∀ m, attn (ix2 m 0) = attnR ns charge batch wq bq wk m := fun m =>
    (hattn m).trans (attn_eq ns charge batch wq bq wk c2 bq2 hc2 hbq m)
  have hAf : (fun m => attn (ix2 m 0)) = attnR ns charge batch wq bq wk := funext hA
  have hgi : (batch (ix1 n)).toInt.toNat = (gi batch n).val := by
    have := hin n; unfold gi; simp only; omega
  obtain ⟨σ, hσ, hS⟩ := segsum_pos batch (attnR ns charge batch wq bq wk)
    (attnR_pos ns charge batch wq bq wk hns hch hwq hbqr hwk) (gi batch n) n hgi
  have hx : xK cr wv n = xR ns charge batch wq bq wk wv n := by
    funext l
    unfold xK xR
    rw [hcr1, hcr0, hAf, hA, hS, vK_eq]
    exact div_mul_comm' _ _ σ hσ
  unfold outElt outR
  rw [hx, mlp_eq _ w1 b1r b1 w2 b2r b2 hb1 hb2, add_assoc]

end Cert.Spec

end
-- ==== Proof.KValue.lean ====
/-
  The idealized kernel program's result, entry by entry, as the reference's spelling of the result
  (`Cert.Spec.outR`) of the launch memory's argument arrays — on finite node features, charges, Wq, bq, Wk and batch words
  that are graph numbers.

  The result array is what the second region's write-backs leave: entry (n, j) is the second region's function of its
  operand arrays as the host glue filled them — the packed pair [charge of the node's graph, logit / graph total], the
  logit the first region's function of ITS operand arrays. Reading the glue at an index gives the hypotheses of the
  bridge between the two spellings.
-/
import proofs.«107950_j44057774522738_2_alg».proof.Proof.KHostB
import proofs.«107950_j44057774522738_2_alg».proof.Proof.AttnValue
import proofs.«107950_j44057774522738_2_alg».proof.Proof.OutValue
import proofs.«107950_j44057774522738_2_alg».proof.Proof.KGlueRead
import proofs.«107950_j44057774522738_2_alg».proof.Proof.Bridge

set_option maxRecDepth 16384

noncomputable section

namespace Cert.KernelIdeal.KValue

open Cert.KernelIdeal Cert.KernelIdeal.Gen Cert.KernelIdeal.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result array is the second region's output array after its last point. -/
theorem result_arr (c : Dev nD) : W4 m ρ c (Proc.devRef .tc main_v26) = (dat1 (V3 m ρ) c).arrAt 7 cfg1.N :=
  W4_arr m ρ c 7

/-- Entry (n, j) of the result, in the reference's spelling. -/
theorem result_entry (c : Dev nD)
    (hns : ∀ i, Cert.Spec.IsR (m ((c.tc : Thread nD τ).loc main_arg0) i))
    (hch : ∀ i, Cert.Spec.IsR (m ((c.tc : Thread nD τ).loc main_arg1) i))
    (hwq : ∀ i, Cert.Spec.IsR (m ((c.tc : Thread nD τ).loc main_arg3) i))
    (hbq : ∀ i, Cert.Spec.IsR (m ((c.tc : Thread nD τ).loc main_arg4) i))
    (hwk : ∀ i, Cert.Spec.IsR (m ((c.tc : Thread nD τ).loc main_arg5) i))
    (hin : ∀ n : Fin 1000000, 0 ≤ (m ((c.tc : Thread nD τ).loc main_arg2) (ix1 n)).toInt
      ∧ (m ((c.tc : Thread nD τ).loc main_arg2) (ix1 n)).toInt < 10000)
    (n : Fin 1000000) (j : Fin 128) :
    (W4 m ρ c (Proc.devRef .tc main_v26) : S1000000x128.Idx → EReal) (ix2 n j)
      = Cert.Spec.outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) n j := by
  rw [result_arr, OutValue.arr_out (V3 m ρ) c n j,
    V3_arg0, V3_v25, V3_arg6, V3_arg7, V3_v9, V3_arg9, V3_v10,
    V1_arg0, V1_v7, V1_arg2, V1_arg6, V1_arg7, V1_v9, V1_arg9, V1_v10]
  refine Cert.Spec.out_eq _ _ _ _ _ _ _ _ _ _ _
    (chargeNode (m ((c.tc : Thread nD τ).loc main_arg1)) (m ((c.tc : Thread nD τ).loc main_arg2)))
    (rowOf (m ((c.tc : Thread nD τ).loc main_arg4))) _ _ _
    ((dat0 (V1 m ρ) c).arrAt 5 cfg0.N)
    (fun n => GlueRead.chargeNode_apply _ _ hin n)
    (fun j => GlueRead.rowOf_apply _ j) (fun j => GlueRead.rowOf_apply _ j) (fun j => GlueRead.rowOf_apply _ j)
    (fun n => ?_)
    (fun n => (GlueRead.pairOf_apply_zero _ _ _ n).trans (GlueRead.chargeNode_apply _ _ hin n))
    (fun n => GlueRead.pairOf_apply_one _ _ _ hin n)
    hns hch hwq hbq hwk hin n j
  rw [AttnValue.arr_attn (V1 m ρ) c n, V1_arg0, V1_v7, V1_arg3, V1_v8, V1_arg5]

end Cert.KernelIdeal.KValue

end
-- ==== Proof.RefAttn.lean ====
/-
  The reference program's stages up to the attention logit, read at an index over the extended reals.

  The query row is (ns · Wq)(n, j) + bq(j). Graph g's two charge features are max c 0 and max (−c) 0 with c = charge[g]
  (the two columns of the stacked array, given here as hypotheses); the key row is the features divided by their
  maximum with one, times Wk, and the value row is the features times Wv. The attention logit of node n is the guarded
  softplus of scale · (0 + Σ_j q(n, j) · k(n, j)), given the gathered key row.
-/
import proofs.«107950_j44057774522738_2_alg».proof.Proof.RefRead
import proofs.«107950_j44057774522738_2_alg».proof.Proof.SpecR

noncomputable section

namespace Cert.ReferenceIdeal.RefValue

open Cert.ReferenceIdeal Cert.ReferenceIdeal.Gen Cert.ReferenceIdeal.ReadP Idealize.ShloMosaic Idealize.ShloMosaic.ValueIdx Cert.Spec

/-- The query row: (ns · Wq)(n, j) + bq(j). -/
theorem q_entry (x0 : (⟨S1000000x128, .f32⟩ : BufTy).Contents (Elt Ideal)) (x3 : (⟨S128x128, .f32⟩ : BufTy).Contents (Elt Ideal))
    (x4 : (⟨S128, .f32⟩ : BufTy).Contents (Elt Ideal)) (n : Fin 1000000) (j : Fin 128) :
    val_main_v10 (F := Ideal) x0 x3 x4 (ix2 n j) = qR x0 x3 x4 n j := by
  rw [val_main_v10_apply, val_main_v7_apply, val_main_v9_apply, val_main_v8_apply]
  have e1 : ∀ k : Fin 128, lidx_main_v7 (ix2 n j) k = ix2 n k := fun k =>
    funext fun a => Fin.ext (by match a with | ⟨0, _⟩ => rfl | ⟨1, _⟩ => rfl)
  have e2 : ∀ k : Fin 128, ridx_main_v7 (ix2 n j) k = ix2 k j := fun k =>
    funext fun a => Fin.ext (by match a with | ⟨0, _⟩ => rfl | ⟨1, _⟩ => rfl)
  have e3 : idx_main_v8 (idx_main_v9 (ix2 n j)) = ix1 j :=
    funext fun a => Fin.ext (by match a with | ⟨0, _⟩ => rfl)
  simp only [e1, e2, e3]
  rfl

/-- The key row of graph g: each charge feature divided by its maximum with one, times Wk. -/
theorem k_row (x1 : (⟨S10000, .f32⟩ : BufTy).Contents (Elt Ideal)) (x5 : (⟨S2x128, .f32⟩ : BufTy).Contents (Elt Ideal)) (g : Fin 10000) (j : Fin 128)
    (h0 : val_main_v3 (F := Ideal) x1 (ix2 g 0) = x1 (ix1 g))
    (h1 : val_main_v3 (F := Ideal) x1 (ix2 g 1) = -(x1 (ix1 g))) :
    val_main_v12 (F := Ideal) x1 x5 (ix2 g j) = kR (x1 (ix1 g)) x5 j := by
  rw [val_main_v12_apply, Fin.sum_univ_two]
  have e1 : ∀ k : Fin 2, lidx_main_v12 (ix2 g j) k = ix2 g k := fun k => funext fun a => Fin.ext (by match a with | ⟨0, _⟩ => rfl | ⟨1, _⟩ => rfl)
  have e2 : ∀ k : Fin 2, ridx_main_v12 (ix2 g j) k = ix2 k j := fun k => funext fun a => Fin.ext (by match a with | ⟨0, _⟩ => rfl | ⟨1, _⟩ => rfl)
  simp only [e1, e2, val_main_v11_apply, val_main_v6_apply, val_main_v4_apply, val_main_v5_apply, val_main_cst_apply,
    val_main_call0_v0_apply, val_main_call0_cst_apply, h0, h1]
  rfl

/-- The value row of graph g: the two charge features times Wv. -/
theorem v_row (x1 : (⟨S10000, .f32⟩ : BufTy).Contents (Elt Ideal)) (x6 : (⟨S2x128, .f32⟩ : BufTy).Contents (Elt Ideal)) (g : Fin 10000) (j : Fin 128)
    (h0 : val_main_v3 (F := Ideal) x1 (ix2 g 0) = x1 (ix1 g))
    (h1 : val_main_v3 (F := Ideal) x1 (ix2 g 1) = -(x1 (ix1 g))) :
    val_main_v13 (F := Ideal) x1 x6 (ix2 g j) = vR (x1 (ix1 g)) x6 j := by
  rw [val_main_v13_apply, Fin.sum_univ_two]
  have e1 : ∀ k : Fin 2, lidx_main_v13 (ix2 g j) k = ix2 g k := fun k => funext fun a => Fin.ext (by match a with | ⟨0, _⟩ => rfl | ⟨1, _⟩ => rfl)
  have e2 : ∀ k : Fin 2, ridx_main_v13 (ix2 g j) k = ix2 k j := fun k => funext fun a => Fin.ext (by match a with | ⟨0, _⟩ => rfl | ⟨1, _⟩ => rfl)
  simp only [e1, e2, val_main_v4_apply, val_main_call0_v0_apply, val_main_call0_cst_apply, h0, h1]
  rfl

/-- The attention logit of node n, given the gathered key row. -/
theorem attn_entry (x0 : (⟨S1000000x128, .f32⟩ : BufTy).Contents (Elt Ideal)) (x1 : (⟨S10000, .f32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (n : Fin 1000000) (c : EReal)
    (hk : ∀ j : Fin 128, val_main_v20 (F := Ideal) x1 x2 x5 (ix2 n j) = kR c x5 j) :
    val_main_v33 (F := Ideal) x0 x1 x2 x3 x4 x5 (ix2 n 0)
      = softplusR ((zF + ∑ j : Fin 128, qR x0 x3 x4 n j * kR c x5 j) * scaleF) := by
  have e30 : idx_main_v30 (ix2 n (0 : Fin 1)) = ix1 n := funext fun a => Fin.ext (by match a with | ⟨0, _⟩ => rfl)
  have e29 : ∀ k : Fin 128, idx_main_v29 (ix1 n) k = ix2 n k := fun k => funext fun a => Fin.ext (by match a with | ⟨0, _⟩ => rfl | ⟨1, _⟩ => rfl)
  have hz : val_main_v32 (F := Ideal) x0 x1 x2 x3 x4 x5 (ix2 n 0)
      = (zF + ∑ j : Fin 128, qR x0 x3 x4 n j * kR c x5 j) * scaleF := by
    rw [val_main_v32_apply, val_main_v30_apply, e30, val_main_v29_apply, val_main_v31_apply, val_main_cst_4_apply,
      val_main_cst_3_apply]
    simp only [e29, val_main_v28_apply, q_entry, hk]
    rfl
  rw [val_main_v33_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, hz]
  rfl

end Cert.ReferenceIdeal.RefValue

end
-- ==== Proof.RGlue.lean ====
/-
  The host operations that join the reference program's stages, read at an index at the ideal instance: the gather of
  rows of a matrix at a column of start indices, the accumulating scatter of a column into a column, the index
  normalisation `select (b < 0) (b + 10000) b`, the concatenate of two columns, and the broadcasts between them.

  A gather's start index is read signed and clamped into [0, size − slice size], so with slice size 1 on an axis of
  N rows the row read is `min idx.toNat (N − 1)`; the other axis is an offset axis and keeps its coordinate. A
  scatter's start index is read signed and not clamped: an update whose index leaves [0, N) is dropped, so the closed
  form of the scatter is stated under the hypothesis that every index is in range, and then update m lands in row
  `idx m`. The gather and scatter lemmas are proved once over arbitrary extents, for dimension numbers of the
  program's pattern, and the program's records are instances of them.
-/
import proofs.«107950_j44057774522738_2_alg».proof.ReferenceIdeal
import Idealize.ShloMosaic.Lib.ValueIdx
import Idealize.ShloMosaic.Lib.IdealHost
import Idealize.ShloMosaic.Lib.Affine
import Idealize.ShloMosaic.Lib.Pipeline.Value
import Idealize.ShloMosaic.Lib.ValueLayout
import Idealize.ShloMosaic.Lib.KernelVsHost

noncomputable section

open scoped BigOperators

namespace Cert.ReferenceIdeal.Glue

open Idealize.ShloMosaic Idealize.ShloMosaic.ValueIdx Cert.ReferenceIdeal

/-! ## Lemmas over any extent -/

/-- An `[m, 1]` column's index set is its row coordinate's range. -/
def colEquiv {m : Nat} : (⟨2, ![m, 1]⟩ : Shape).Idx ≃ Fin m where
  toFun j := j 0
  invFun a := ix2 a (0 : Fin 1)
  left_inv j := by
    funext a; refine Fin.ext ?_
    match a with
    | ⟨0, _⟩ => rfl
    | ⟨1, _⟩ =>
      show 0 = (j 1).val
      have := idx2_lt1 j
      omega
  right_inv _ := rfl

/-- A sum over an `[m, 1]` column's index set is the sum over the rows. -/
theorem sum_col {M : Type*} [AddCommMonoid M] {m : Nat} [Fintype (⟨2, ![m, 1]⟩ : Shape).Idx]
    (f : (⟨2, ![m, 1]⟩ : Shape).Idx → M) : ∑ j, f j = ∑ a : Fin m, f (ix2 a (0 : Fin 1)) :=
  (Equiv.sum_comp (colEquiv (m := m)).symm f).symm

/-! ### The gather of rows: `x[idx]` of an `[N, C]` matrix at `M` start indices -/

/-- The dimension numbers of a row gather: operand `[N, C]`, start indices `[M, 1]`, result `[M, C]`; axis 0 of the
    operand is collapsed and indexed, axis 1 is the result's offset axis. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The start-indices index a row gather reads for result index `(n, j)`: row n of the one column. -/
theorem rows_siIdx {N M C : Nat}
    (wf : GatherDims.WF ⟨2, ![N, C]⟩ ⟨2, ![M, 1]⟩ ⟨2, ![M, C]⟩ [1] [0] [] [0] [] 1 ![1, C])
    (n : Fin M) (j : Fin C) (c : Fin (rowsDims N M C wf).startIndexMap.length) :
    (rowsDims N M C wf).siIdx (ix2 n j) c = ix2 n (0 : Fin 1) := by
  funext b; refine Fin.ext ?_
  match b with
  | ⟨0, _⟩ => rfl
  | ⟨1, _⟩ =>
    show c.val = 0
    have := c.isLt
    have hl : (rowsDims N M C wf).startIndexMap.length = 1 := rfl
    omega

/-- A ROW GATHER READ AT `(n, j)`: the operand at row `idx[n, 0]`, read signed and clamped into [0, N − 1], column j. -/
theorem gather_rows_apply {α : Type} {N M C : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ 32) (n : Fin M) (j : Fin C) :
    Host.gather (rowsDims N M C wf) x idx (ix2 n j)
      = x (ix2 ⟨min (idx (ix2 n (0 : Fin 1))).toInt.toNat (N - 1), by omega⟩ j) := by
  unfold Host.gather
  congr 1
  funext a
  refine Fin.ext ?_
  match a with
  | ⟨0, _⟩ =>
    show (rowsDims N M C wf).start (ix2 n j) idx 0 + (rowsDims N M C wf).batchCoord (ix2 n j) 0
        + (rowsDims N M C wf).offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl), rows_siIdx]
    rfl
  | ⟨1, _⟩ =>
    show (rowsDims N M C wf).start (ix2 n j) idx 1 + (rowsDims N M C wf).batchCoord (ix2 n j) 1
        + (rowsDims N M C wf).offCoord (ix2 n j) 1 = j.val
    have hs : (rowsDims N M C wf).start (ix2 n j) idx 1 = 0 := by
      unfold GatherDims.start
      have hm : (1 : Fin 2) ∉ (rowsDims N M C wf).startIndexMap := (show (1 : Fin 2) ∉ [(0 : Fin 2)] by decide)
      rw [dif_neg hm]
    have hk : (1 : Fin 2) ∈ (rowsDims N M C wf).sKept :=
      (GatherDims.mem_sKept _ _).mpr ⟨(show (1 : Fin 2) ∉ [(0 : Fin 2)] by decide), List.not_mem_nil⟩
    have ho : (rowsDims N M C wf).offCoord (ix2 n j) 1 = j.val := by
      unfold GatherDims.offCoord
      rw [dif_pos hk]
      rfl
    rw [GatherDims.batchCoord_eq_zero _ _ _ List.not_mem_nil, hs, ho]
    omega

/-! ### The accumulating scatter of a column into a column -/

/-- The dimension numbers of a column scatter: operand `[N, 1]`, scatter indices `[M, 1]`, updates `[M, 1]`; axis 0 of
    the operand is inserted and indexed, axis 1 is the updates' window axis. -/
abbrev colScatterDims (N M : Nat)
    (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- The scatter-indices index a column scatter reads for update index `(m, z)`: row m of the one column. -/
theorem colScatter_siIdx {N M : Nat} (wf : ScatterDims.WF ⟨2, ![N, 1]⟩ ⟨2, ![M, 1]⟩ ⟨2, ![M, 1]⟩ [1] [0] [0] 1)
    (m : Fin M) (z : Fin 1) (c : Fin (colScatterDims N M wf).scatterDimsToOperandDims.length) :
    (colScatterDims N M wf).siIdx (ix2 m z) c = ix2 m (0 : Fin 1) := by
  funext b; refine Fin.ext ?_
  match b with
  | ⟨0, _⟩ => rfl
  | ⟨1, _⟩ =>
    show c.val = 0
    have := c.isLt
    have hl : (colScatterDims N M wf).scatterDimsToOperandDims.length = 1 := rfl
    omega

/-- On the row axis the window starts at the word `idx[m, 0]` read signed (not clamped) … -/
theorem colScatter_start0 {N M : Nat} (wf : ScatterDims.WF ⟨2, ![N, 1]⟩ ⟨2, ![M, 1]⟩ ⟨2, ![M, 1]⟩ [1] [0] [0] 1)
    (idx : IVec ⟨2, ![M, 1]⟩ 32) (m : Fin M) (z : Fin 1) :
    (colScatterDims N M wf).start (ix2 m z) idx 0 = (idx (ix2 m (0 : Fin 1))).toInt := by
  unfold ScatterDims.start
  rw [dif_pos (show (0 : Fin 2) ∈ (colScatterDims N M wf).scatterDimsToOperandDims from List.mem_singleton.mpr rfl),
    colScatter_siIdx]

/-- … with window coordinate 0 there (the axis is inserted); … -/
theorem colScatter_window0 {N M : Nat} (wf : ScatterDims.WF ⟨2, ![N, 1]⟩ ⟨2, ![M, 1]⟩ ⟨2, ![M, 1]⟩ [1] [0] [0] 1)
    (m : Fin M) (z : Fin 1) : (colScatterDims N M wf).window (ix2 m z) 0 = 0 := by
  unfold ScatterDims.window
  have hk : (0 : Fin 2) ∉ (colScatterDims N M wf).sKept :=
    (show (0 : Fin 2) ∉ (List.finRange 2).filter (· ∉ [(0 : Fin 2)]) by decide)
  rw [dif_neg hk]

/-- … on the column axis the start is 0 (the index map does not name it) … -/
theorem colScatter_start1 {N M : Nat} (wf : ScatterDims.WF ⟨2, ![N, 1]⟩ ⟨2, ![M, 1]⟩ ⟨2, ![M, 1]⟩ [1] [0] [0] 1)
    (idx : IVec ⟨2, ![M, 1]⟩ 32) (m : Fin M) (z : Fin 1) : (colScatterDims N M wf).start (ix2 m z) idx 1 = 0 := by
  unfold ScatterDims.start
  have hm : (1 : Fin 2) ∉ (colScatterDims N M wf).scatterDimsToOperandDims := (show (1 : Fin 2) ∉ [(0 : Fin 2)] by decide)
  rw [dif_neg hm]

/-- … and the window coordinate is the update's column coordinate, which is 0. -/
theorem colScatter_window1 {N M : Nat} (wf : ScatterDims.WF ⟨2, ![N, 1]⟩ ⟨2, ![M, 1]⟩ ⟨2, ![M, 1]⟩ [1] [0] [0] 1)
    (m : Fin M) (z : Fin 1) : (colScatterDims N M wf).window (ix2 m z) 1 = 0 := by
  unfold ScatterDims.window
  have hk : (1 : Fin 2) ∈ (colScatterDims N M wf).sKept :=
    (show (1 : Fin 2) ∈ (List.finRange 2).filter (· ∉ [(0 : Fin 2)]) by decide)
  rw [dif_pos hk]
  show z.val = 0
  omega

/-- WHERE UPDATE `(m, z)` LANDS: with its index in [0, N) read signed, in row `idx[m, 0]` — so it lands at `(g, 0)`
    exactly when that word, as a natural number, is g. -/
theorem colScatter_lands {N M : Nat} (wf : ScatterDims.WF ⟨2, ![N, 1]⟩ ⟨2, ![M, 1]⟩ ⟨2, ![M, 1]⟩ [1] [0] [0] 1)
    (idx : IVec ⟨2, ![M, 1]⟩ 32) (m : Fin M) (z : Fin 1) (g : Fin N)
    (h0 : 0 ≤ (idx (ix2 m (0 : Fin 1))).toInt) (h1 : (idx (ix2 m (0 : Fin 1))).toInt < (N : Int)) :
    (colScatterDims N M wf).resultIdx? (ix2 m z) idx = some (ix2 g (0 : Fin 1))
      ↔ (idx (ix2 m (0 : Fin 1))).toInt.toNat = g.val := by
  have hsw0 : (colScatterDims N M wf).start (ix2 m z) idx 0 + ((colScatterDims N M wf).window (ix2 m z) 0 : Int)
      = (idx (ix2 m (0 : Fin 1))).toInt := by
    rw [colScatter_start0, colScatter_window0]; simp
  have hsw1 : (colScatterDims N M wf).start (ix2 m z) idx 1 + ((colScatterDims N M wf).window (ix2 m z) 1 : Int) = 0 := by
    rw [colScatter_start1, colScatter_window1]; simp
  have hall : ∀ a : Fin (⟨2, ![N, 1]⟩ : Shape).rank,
      0 ≤ (colScatterDims N M wf).start (ix2 m z) idx a + ((colScatterDims N M wf).window (ix2 m z) a : Int)
      ∧ (colScatterDims N M wf).start (ix2 m z) idx a + ((colScatterDims N M wf).window (ix2 m z) a : Int)
          < ((⟨2, ![N, 1]⟩ : Shape).size a : Int) := by
    intro a
    match a with
    | ⟨0, _⟩ =>
      show 0 ≤ (colScatterDims N M wf).start (ix2 m z) idx 0 + ((colScatterDims N M wf).window (ix2 m z) 0 : Int)
        ∧ (colScatterDims N M wf).start (ix2 m z) idx 0 + ((colScatterDims N M wf).window (ix2 m z) 0 : Int) < (N : Int)
      rw [hsw0]; exact ⟨h0, h1⟩
    | ⟨1, _⟩ =>
      show 0 ≤ (colScatterDims N M wf).start (ix2 m z) idx 1 + ((colScatterDims N M wf).window (ix2 m z) 1 : Int)
        ∧ (colScatterDims N M wf).start (ix2 m z) idx 1 + ((colScatterDims N M wf).window (ix2 m z) 1 : Int) < ((1 : Nat) : Int)
      rw [hsw1]; exact ⟨le_refl _, by norm_num⟩
  unfold ScatterDims.resultIdx?
  rw [dif_pos hall]
  constructor
  · intro h
    have e := congrArg Fin.val (congrFun (Option.some.inj h) 0)
    have e' : ((colScatterDims N M wf).start (ix2 m z) idx 0
      + ((colScatterDims N M wf).window (ix2 m z) 0 : Int)).toNat = g.val := e
    rwa [hsw0] at e'
  · intro h
    refine congrArg some (funext fun a => Fin.ext ?_)
    match a with
    | ⟨0, _⟩ =>
      show ((colScatterDims N M wf).start (ix2 m z) idx 0
        + ((colScatterDims N M wf).window (ix2 m z) 0 : Int)).toNat = g.val
      rw [hsw0]; exact h
    | ⟨1, _⟩ =>
      show ((colScatterDims N M wf).start (ix2 m z) idx 1
        + ((colScatterDims N M wf).window (ix2 m z) 1 : Int)).toNat = 0
      rw [hsw1]; rfl

/-- A COLUMN SCATTER-ADD READ AT `(g, 0)`, every index in range: the operand's entry plus the updates whose index is g. -/
theorem colScatterAdd_apply {N M : Nat} (wf : ScatterDims.WF ⟨2, ![N, 1]⟩ ⟨2, ![M, 1]⟩ ⟨2, ![M, 1]⟩ [1] [0] [0] 1)
    (x : FVec Ideal ⟨2, ![N, 1]⟩ .f32) (idx : IVec ⟨2, ![M, 1]⟩ 32) (u : FVec Ideal ⟨2, ![M, 1]⟩ .f32) (g : Fin N)
    (hin : ∀ m : Fin M, 0 ≤ (idx (ix2 m (0 : Fin 1))).toInt ∧ (idx (ix2 m (0 : Fin 1))).toInt < (N : Int)) :
    Host.scatterAdd (colScatterDims N M wf) x idx u (ix2 g (0 : Fin 1))
      = x (ix2 g (0 : Fin 1))
        + ∑ m : Fin M, if (idx (ix2 m (0 : Fin 1))).toInt.toNat = g.val then u (ix2 m (0 : Fin 1)) else 0 := by
  unfold Host.scatterAdd
  rw [Ideal.hostScatterAdd_def]
  unfold Ideal.hostScatterAdd
  refine congrArg (x (ix2 g (0 : Fin 1)) + ·) ?_
  rw [Finset.sum_filter, sum_col]
  exact Finset.sum_congr rfl fun m _ => if_congr (colScatter_lands wf idx m 0 g (hin m).1 (hin m).2) rfl rfl

/-! ### The index normalisation, two columns joined, and broadcasts -/

/-- `select (b < 0) (b + c) b` — what `x[idx]` lowers a possibly negative index to — is `b` wherever every word of
    `b`, read signed, is at least 0: the comparison's bit is 0 at every index, and the select reads its third operand. -/
theorem normalise_of_nonneg {S : Shape} (hb : S_.BroadcastsInDim S (![] : Fin 0 → Fin S.rank)) (b : IVec S 32) (c : BitVec 32)
    (h : ∀ i, 0 ≤ (b i).toInt) :
    select (cmpi .slt b (broadcastInDim S ![] hb (constantI S_ 32 0#32)))
      (addi b (broadcastInDim S ![] hb (constantI S_ 32 c))) b = b := by
  funext i
  rw [select_apply]
  have hc : cmpi .slt b (broadcastInDim S ![] hb (constantI S_ 32 0#32)) i = 0#1 := by
    refine eq_zero_of_ne_one fun h1 => ?_
    have h2 : IntOp.cmpi .slt (b i) (broadcastInDim S ![] hb (constantI S_ 32 0#32) i) = 1#1 := h1
    rw [broadcastInDim_scalar_apply] at h2
    have h3 : (b i).toInt < (0#32 : BitVec 32).toInt := IntOp.cmpi_slt.1 h2
    have z : (0#32 : BitVec 32).toInt = 0 := by decide
    have := h i
    omega
  rw [hc, select_zero]

/-- Two `[m, 1]` columns concatenated along axis 1 into `[m, 2]`: column 0 is the first operand … -/
theorem concat_cols_left {α : Type} {m : Nat}
    (h : Shape.Concatenates [(⟨2, ![m, 1]⟩ : Shape), ⟨2, ![m, 1]⟩] ⟨2, ![m, 2]⟩ 1)
    (a b : (⟨2, ![m, 1]⟩ : Shape).Idx → α) (n : Fin m) :
    concatenate ⟨2, ![m, 2]⟩ 1 [⟨⟨2, ![m, 1]⟩, a⟩, ⟨⟨2, ![m, 1]⟩, b⟩] h (ix2 n (0 : Fin 2)) = a (ix2 n (0 : Fin 1)) :=
  concatenate_pair_apply_left 1 a b h (ix2 n (0 : Fin 2)) rfl (ix2 n (0 : Fin 1)) (by
    intro c
    match c with
    | ⟨0, _⟩ => rfl
    | ⟨1, _⟩ => rfl)

/-- … and column 1 the second. -/
theorem concat_cols_right {α : Type} {m : Nat}
    (h : Shape.Concatenates [(⟨2, ![m, 1]⟩ : Shape), ⟨2, ![m, 1]⟩] ⟨2, ![m, 2]⟩ 1)
    (a b : (⟨2, ![m, 1]⟩ : Shape).Idx → α) (n : Fin m) :
    concatenate ⟨2, ![m, 2]⟩ 1 [⟨⟨2, ![m, 1]⟩, a⟩, ⟨⟨2, ![m, 1]⟩, b⟩] h (ix2 n (1 : Fin 2)) = b (ix2 n (0 : Fin 1)) :=
  concatenate_pair_apply_right 1 a b h (ix2 n (1 : Fin 2)) rfl rfl (ix2 n (0 : Fin 1))
    (by
      intro c hc
      match c with
      | ⟨0, _⟩ => rfl
      | ⟨1, _⟩ => exact absurd rfl hc)
    rfl

/-- An `[m]` array broadcast along axis 0 into an `[m, 1]` column reads, at `(n, z)`, the operand at `n`. -/
theorem broadcastInDim_col_apply {α : Type} {m : Nat}
    (h : (⟨1, ![m]⟩ : Shape).BroadcastsInDim ⟨2, ![m, 1]⟩ ![0]) (y : (⟨1, ![m]⟩ : Shape).Idx → α) (n : Fin m) (z : Fin 1) :
    broadcastInDim ⟨2, ![m, 1]⟩ ![0] h y (ix2 n z) = y (ix1 n) := by
  refine broadcastInDim_apply ![0] h y (ix2 n z) (ix1 n) ?_
  intro a
  match a with
  | ⟨0, _⟩ =>
    show n.val = if m = 1 then 0 else n.val
    split
    · have := n.isLt; omega
    · rfl

/-- An `[m, 1]` column broadcast along both axes into an `[m, c]` matrix reads, at `(n, j)`, the operand at `(n, 0)`. -/
theorem broadcastInDim_colToMat_apply {α : Type} {m c : Nat}
    (h : (⟨2, ![m, 1]⟩ : Shape).BroadcastsInDim ⟨2, ![m, c]⟩ ![0, 1]) (y : (⟨2, ![m, 1]⟩ : Shape).Idx → α)
    (n : Fin m) (j : Fin c) :
    broadcastInDim ⟨2, ![m, c]⟩ ![0, 1] h y (ix2 n j) = y (ix2 n (0 : Fin 1)) := by
  refine broadcastInDim_apply ![0, 1] h y (ix2 n j) (ix2 n (0 : Fin 1)) ?_
  intro a
  match a with
  | ⟨0, _⟩ =>
    show n.val = if m = 1 then 0 else n.val
    split
    · have := n.isLt; omega
    · rfl
  | ⟨1, _⟩ =>
    show (0 : ℕ) = if (1 : ℕ) = 1 then 0 else j.val
    simp

/-- A `[c]` array broadcast along axis 1 into a `[1, c]` row reads, at `(z, j)`, the operand at `j`. -/
theorem broadcastInDim_row_apply {α : Type} {c : Nat}
    (h : (⟨1, ![c]⟩ : Shape).BroadcastsInDim ⟨2, ![1, c]⟩ ![1]) (y : (⟨1, ![c]⟩ : Shape).Idx → α) (z : Fin 1) (j : Fin c) :
    broadcastInDim ⟨2, ![1, c]⟩ ![1] h y (ix2 z j) = y (ix1 j) := by
  refine broadcastInDim_apply ![1] h y (ix2 z j) (ix1 j) ?_
  intro a
  match a with
  | ⟨0, _⟩ =>
    show j.val = if c = 1 then 0 else j.val
    split
    · have := j.isLt; omega
    · rfl

/-! ## The program's records -/

section
variable [Facts₀]
open Facts₀

/-! ### R1 — the two gathers -/

/-- The gather of rows of a `[10000, 128]` matrix, at `(n, j)`: row `idx[n, 0]` read signed and clamped into [0, 9999]. -/
theorem gather_S10000x128_apply {α : Type} (x : S10000x128.Idx → α) (idx : IVec S1000000x1 32) (n : Fin 1000000) (j : Fin 128) :
    Host.gather gather_S10000x128_S1000000x1_S1000000x128_1_0_n_n_0_1_1128 x idx (ix2 n j)
      = x (ix2 ⟨min (idx (ix2 n (0 : Fin 1))).toInt.toNat 9999, by omega⟩ j) :=
  gather_rows_apply (N := 10000) (M := 1000000) (C := 128) (by omega)
    gather_S10000x128_S1000000x1_S1000000x128_1_0_n_n_0_1_1128_wf x idx n j

/-- The gather of entries of a `[10000, 1]` column, at `(n, 0)`: row `idx[n, 0]` read signed and clamped into [0, 9999]. -/
theorem gather_S10000x1_apply {α : Type} (x : S10000x1.Idx → α) (idx : IVec S1000000x1 32) (n : Fin 1000000) :
    Host.gather gather_S10000x1_S1000000x1_S1000000x1_1_0_n_n_0_1_11 x idx (ix2 n (0 : Fin 1))
      = x (ix2 ⟨min (idx (ix2 n (0 : Fin 1))).toInt.toNat 9999, by omega⟩ (0 : Fin 1)) :=
  gather_rows_apply (N := 10000) (M := 1000000) (C := 1) (by omega)
    gather_S10000x1_S1000000x1_S1000000x1_1_0_n_n_0_1_11_wf x idx n 0

/-! ### R2 — the scatter-add into a `[10000, 1]` column -/

/-- Where update `(m, 0)` lands, its index in [0, 10000). -/
theorem scatter_lands (idx : IVec S1000000x1 32) (m : Fin 1000000) (g : Fin 10000)
    (h0 : 0 ≤ (idx (ix2 m (0 : Fin 1))).toInt) (h1 : (idx (ix2 m (0 : Fin 1))).toInt < 10000) :
    scatter_S10000x1_S1000000x1_S1000000x1_1_0_0_1.resultIdx? (ix2 m (0 : Fin 1)) idx = some (ix2 g (0 : Fin 1))
      ↔ (idx (ix2 m (0 : Fin 1))).toInt.toNat = g.val :=
  colScatter_lands (N := 10000) (M := 1000000) scatter_S10000x1_S1000000x1_S1000000x1_1_0_0_1_wf idx m 0 g h0
    (by exact_mod_cast h1)

/-- THE SCATTER-ADD READ AT `(g, 0)`, every index in range: the operand's entry plus the updates whose index is g. -/
theorem scatterAdd_apply (x : FVec Ideal S10000x1 .f32) (idx : IVec S1000000x1 32) (u : FVec Ideal S1000000x1 .f32)
    (g : Fin 10000)
    (hin : ∀ m : Fin 1000000, 0 ≤ (idx (ix2 m (0 : Fin 1))).toInt ∧ (idx (ix2 m (0 : Fin 1))).toInt < 10000) :
    Host.scatterAdd scatter_S10000x1_S1000000x1_S1000000x1_1_0_0_1 x idx u (ix2 g (0 : Fin 1))
      = x (ix2 g (0 : Fin 1))
        + ∑ m : Fin 1000000, if (idx (ix2 m (0 : Fin 1))).toInt.toNat = g.val then u (ix2 m (0 : Fin 1)) else 0 :=
  colScatterAdd_apply (N := 10000) (M := 1000000) scatter_S10000x1_S1000000x1_S1000000x1_1_0_0_1_wf x idx u g
    (fun m => ⟨(hin m).1, by exact_mod_cast (hin m).2⟩)

/-! ### R3 — the index normalisation -/

/-- The normalisation as the program spells it (three times, over different buffers), on the index array of 1000000
    words against the extent 10000. -/
theorem normalise_apply (b : IVec S1000000 32) (h : ∀ i, 0 ≤ (b i).toInt) :
    select (cmpi .slt b (broadcastInDim S1000000 ![] bcast_S_S1000000 (constantI S_ 32 0#32)))
      (addi b (broadcastInDim S1000000 ![] bcast_S_S1000000 (constantI S_ 32 10000#32))) b = b :=
  normalise_of_nonneg bcast_S_S1000000 b 10000#32 h

/-! ### R4 — the concatenate of two `[10000, 1]` columns -/

/-- The program's concatenate at `(g, 0)`: the first operand at `(g, 0)`. -/
theorem concatenate_apply_zero {α : Type} (a b : S10000x1.Idx → α) (g : Fin 10000) :
    concatenate S10000x2 1 [⟨S10000x1, a⟩, ⟨S10000x1, b⟩] concatenates_S10000x1_S10000x1_S10000x2_d1
      (ix2 g (0 : Fin 2)) = a (ix2 g (0 : Fin 1)) :=
  concat_cols_left concatenates_S10000x1_S10000x1_S10000x2_d1 a b g

/-- The program's concatenate at `(g, 1)`: the second operand at `(g, 0)`. -/
theorem concatenate_apply_one {α : Type} (a b : S10000x1.Idx → α) (g : Fin 10000) :
    concatenate S10000x2 1 [⟨S10000x1, a⟩, ⟨S10000x1, b⟩] concatenates_S10000x1_S10000x1_S10000x2_d1
      (ix2 g (1 : Fin 2)) = b (ix2 g (0 : Fin 1)) :=
  concat_cols_right concatenates_S10000x1_S10000x1_S10000x2_d1 a b g

/-! ### R5 — the broadcasts -/

/-- `[10000] → [10000, 1]` along axis 0, at `(g, 0)`. -/
theorem broadcastInDim_S10000x1_apply {α : Type} (y : S10000.Idx → α) (g : Fin 10000) :
    broadcastInDim S10000x1 ![0] bcast_S10000_S10000x1_0 y (ix2 g (0 : Fin 1)) = y (ix1 g) :=
  broadcastInDim_col_apply bcast_S10000_S10000x1_0 y g 0

/-- `[1000000] → [1000000, 1]` along axis 0, at `(n, 0)`. -/
theorem broadcastInDim_S1000000x1_apply {α : Type} (y : S1000000.Idx → α) (n : Fin 1000000) :
    broadcastInDim S1000000x1 ![0] bcast_S1000000_S1000000x1_0 y (ix2 n (0 : Fin 1)) = y (ix1 n) :=
  broadcastInDim_col_apply bcast_S1000000_S1000000x1_0 y n 0

/-- `[1000000, 1] → [1000000, 128]` along both axes, at `(n, j)`: the operand at `(n, 0)`. -/
theorem broadcastInDim_S1000000x1_S1000000x128_apply {α : Type} (y : S1000000x1.Idx → α) (n : Fin 1000000) (j : Fin 128) :
    broadcastInDim S1000000x128 ![0, 1] bcast_S1000000x1_S1000000x128_0_1 y (ix2 n j) = y (ix2 n (0 : Fin 1)) :=
  broadcastInDim_colToMat_apply bcast_S1000000x1_S1000000x128_0_1 y n j

/-- `[128] → [1, 128]` along axis 1, at `(0, j)`. -/
theorem broadcastInDim_S128_S1x128_apply {α : Type} (y : S128.Idx → α) (j : Fin 128) :
    broadcastInDim S1x128 ![1] bcast_S128_S1x128_1 y (ix2 (0 : Fin 1) j) = y (ix1 j) :=
  broadcastInDim_row_apply bcast_S128_S1x128_1 y 0 j

/-- `[1, 128] → [1000000, 128]` along both axes, at `(n, j)`: the operand at `(0, j)`. -/
theorem broadcastInDim_S1x128_S1000000x128_apply {α : Type} (y : S1x128.Idx → α) (n : Fin 1000000) (j : Fin 128) :
    broadcastInDim S1000000x128 ![0, 1] bcast_S1x128_S1000000x128_0_1 y (ix2 n j) = y (ix2 (0 : Fin 1) j) :=
  broadcastInDim_oneRow_apply bcast_S1x128_S1000000x128_0_1 y n j

end

end Cert.ReferenceIdeal.Glue

end
-- ==== Proof.RefX.lean ====
/-
  The reference program's update vector, read at an index over the extended reals.

  Every batch word is a graph number, so the index normalisation leaves it unchanged, a gather at it reads that graph's
  row, and the accumulating scatter adds node m's attention logit into row batch[m]. Hence the key and value rows
  gathered to node n are those of its graph's charge, the gathered total is the sum of the logits over the nodes of
  n's graph (added to the zero the scatter starts from), and the update vector is (a(n) · v(n, j)) / total(n).
-/
import proofs.«107950_j44057774522738_2_alg».proof.Proof.RefAttn
import proofs.«107950_j44057774522738_2_alg».proof.Proof.RGlue

noncomputable section

namespace Cert.ReferenceIdeal.RefValue

open Cert.ReferenceIdeal Cert.ReferenceIdeal.Gen Cert.ReferenceIdeal.ReadP Idealize.ShloMosaic Idealize.ShloMosaic.ValueIdx Cert.Spec

/-- The quotient (a · v) / t at (n, j), given the attention logit a, the gathered value entry v and the gathered graph total t. -/
theorem x_quot (x0 : (⟨S1000000x128, .f32⟩ : BufTy).Contents (Elt Ideal)) (x1 : (⟨S10000, .f32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (x6 : (⟨S2x128, .f32⟩ : BufTy).Contents (Elt Ideal)) (n : Fin 1000000) (j : Fin 128) (a v t : EReal)
    (ha : val_main_v33 (F := Ideal) x0 x1 x2 x3 x4 x5 (ix2 n 0) = a)
    (hv : val_main_v27 (F := Ideal) x1 x2 x6 (ix2 n j) = v)
    (ht : val_main_v43 (F := Ideal) x0 x1 x2 x3 x4 x5 (ix2 n 0) = t) :
    val_main_v47 (F := Ideal) x0 x1 x2 x3 x4 x5 x6 (ix2 n j) = Ideal.div (a * v) t := by
  have e44 : idx_main_v44 (ix2 n j) = ix2 n 0 := funext fun a => Fin.ext (by match a with | ⟨0, _⟩ => rfl | ⟨1, _⟩ => rfl)
  have e46 : idx_main_v46 (ix2 n j) = ix2 n 0 := funext fun a => Fin.ext (by match a with | ⟨0, _⟩ => rfl | ⟨1, _⟩ => rfl)
  rw [val_main_v47_apply, val_main_v45_apply, val_main_v44_apply, val_main_v46_apply, e44, e46, ha, hv, ht]
  rfl

/-- THE UPDATE VECTOR, ENTRY BY ENTRY: with every batch word a graph number, entry (n, j) of the reference's update
    vector is (a(n) · v(c, j)) / (the total of a over node n's graph), c the graph's charge. -/
theorem x_entry (x0 : (⟨S1000000x128, .f32⟩ : BufTy).Contents (Elt Ideal)) (x1 : (⟨S10000, .f32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (x6 : (⟨S2x128, .f32⟩ : BufTy).Contents (Elt Ideal))
    (hin : ∀ n : Fin 1000000, 0 ≤ (x2 (ix1 n)).toInt ∧ (x2 (ix1 n)).toInt < 10000) (n : Fin 1000000) (j : Fin 128) :
    val_main_v47 (F := Ideal) x0 x1 x2 x3 x4 x5 x6 (ix2 n j) = xR x0 x1 x2 x3 x4 x5 x6 n j := by
  -- the index words: a non-negative word is its own normalisation
  have hpos : ∀ i : S1000000.Idx, 0 ≤ (x2 i).toInt := fun i => by rw [eq_ix1 i]; exact (hin _).1
  have h19 : ∀ m : Fin 1000000, val_main_v19 (F := Ideal) x2 (ix2 m (0 : Fin 1)) = x2 (ix1 m) := by
    intro m
    have e : idx_main_v19 (ix2 m (0 : Fin 1)) = ix1 m := funext fun a => Fin.ext (by match a with | ⟨0, _⟩ => rfl)
    have h18 : val_main_v18 (F := Ideal) x2 = x2 := by
      unfold val_main_v18 val_main_v15 val_main_v17 val_main_v14 val_main_v16 val_main_c val_main_c_0
      exact Glue.normalise_apply x2 hpos
    rw [val_main_v19_apply, e, h18]
  have h26 : ∀ m : Fin 1000000, val_main_v26 (F := Ideal) x2 (ix2 m (0 : Fin 1)) = x2 (ix1 m) := by
    intro m
    have e : idx_main_v26 (ix2 m (0 : Fin 1)) = ix1 m := funext fun a => Fin.ext (by match a with | ⟨0, _⟩ => rfl)
    have h25 : val_main_v25 (F := Ideal) x2 = x2 := by
      unfold val_main_v25 val_main_v22 val_main_v24 val_main_v21 val_main_v23 val_main_c_1 val_main_c_2
      exact Glue.normalise_apply x2 hpos
    rw [val_main_v26_apply, e, h25]
  have h42 : ∀ m : Fin 1000000, val_main_v42 (F := Ideal) x2 (ix2 m (0 : Fin 1)) = x2 (ix1 m) := by
    intro m
    have e : idx_main_v42 (ix2 m (0 : Fin 1)) = ix1 m := funext fun a => Fin.ext (by match a with | ⟨0, _⟩ => rfl)
    have h41 : val_main_v41 (F := Ideal) x2 = x2 := by
      unfold val_main_v41 val_main_v38 val_main_v40 val_main_v37 val_main_v39 val_main_c_6 val_main_c_7
      exact Glue.normalise_apply x2 hpos
    rw [val_main_v42_apply, e, h41]
  have h35 : ∀ m : Fin 1000000, val_main_v35 (F := Ideal) x2 (ix2 m (0 : Fin 1)) = x2 (ix1 m) := by
    intro m
    rw [val_main_v35_apply]
    exact congrArg x2 (funext fun a => Fin.ext (by match a with | ⟨0, _⟩ => rfl))
  -- the two stacked columns: the charge and its opposite
  have hc0 : ∀ g : Fin 10000, val_main_v3 (F := Ideal) x1 (ix2 g 0) = x1 (ix1 g) := by
    intro g
    unfold val_main_v3
    rw [Glue.concatenate_apply_zero, val_main_v1_apply]
    exact congrArg x1 (funext fun a => Fin.ext (by match a with | ⟨0, _⟩ => rfl))
  have hc1 : ∀ g : Fin 10000, val_main_v3 (F := Ideal) x1 (ix2 g 1) = -(x1 (ix1 g)) := by
    intro g
    unfold val_main_v3
    rw [Glue.concatenate_apply_one, val_main_v2_apply, val_main_v0_apply]
    exact congrArg (fun i => -(x1 i)) (funext fun a => Fin.ext (by match a with | ⟨0, _⟩ => rfl))
  -- the gathered key and value rows
  have hk : ∀ (m : Fin 1000000) (l : Fin 128),
      val_main_v20 (F := Ideal) x1 x2 x5 (ix2 m l) = kR (x1 (ix1 (gi x2 m))) x5 l := by
    intro m l
    have hrow := Glue.gather_S10000x128_apply (val_main_v12 (F := Ideal) x1 x5) (val_main_v19 (F := Ideal) x2) m l
    simp only [h19 m] at hrow
    unfold val_main_v20
    rw [hrow]
    exact k_row x1 x5 (gi x2 m) l (hc0 _) (hc1 _)
  have hv : ∀ (m : Fin 1000000) (l : Fin 128),
      val_main_v27 (F := Ideal) x1 x2 x6 (ix2 m l) = vR (x1 (ix1 (gi x2 m))) x6 l := by
    intro m l
    have hrow := Glue.gather_S10000x128_apply (val_main_v13 (F := Ideal) x1 x6) (val_main_v26 (F := Ideal) x2) m l
    simp only [h26 m] at hrow
    unfold val_main_v27
    rw [hrow]
    exact v_row x1 x6 (gi x2 m) l (hc0 _) (hc1 _)
  -- the attention logit of every node
  have ha : ∀ m : Fin 1000000, val_main_v33 (F := Ideal) x0 x1 x2 x3 x4 x5 (ix2 m 0) = attnR x0 x1 x2 x3 x4 x5 m :=
    fun m => attn_entry x0 x1 x2 x3 x4 x5 m (x1 (ix1 (gi x2 m))) (hk m)
  -- the graph total, gathered back to the node
  have hin' : ∀ m : Fin 1000000, 0 ≤ (val_main_v35 (F := Ideal) x2 (ix2 m (0 : Fin 1))).toInt
      ∧ (val_main_v35 (F := Ideal) x2 (ix2 m (0 : Fin 1))).toInt < 10000 := by
    intro m
    rw [h35 m]
    exact hin m
  have ht : val_main_v43 (F := Ideal) x0 x1 x2 x3 x4 x5 (ix2 n 0) = segsum x2 (attnR x0 x1 x2 x3 x4 x5) (gi x2 n) := by
    have hrow := Glue.gather_S10000x1_apply (val_main_v36 (F := Ideal) x0 x1 x2 x3 x4 x5) (val_main_v42 (F := Ideal) x2) n
    simp only [h42 n] at hrow
    unfold val_main_v43
    rw [hrow]
    show val_main_v36 (F := Ideal) x0 x1 x2 x3 x4 x5 (ix2 (gi x2 n) (0 : Fin 1)) = _
    unfold val_main_v36
    rw [Glue.scatterAdd_apply _ _ _ (gi x2 n) hin']
    simp only [h35, ha, val_main_v34_apply, val_main_cst_5_apply]
    rfl
  exact x_quot x0 x1 x2 x3 x4 x5 x6 n j _ _ _ (ha n) (hv n j) ht

end Cert.ReferenceIdeal.RefValue

end
-- ==== Proof.RefTail.lean ====
/-
  The reference program's last stages, read at an index over the extended reals: the two-layer network applies
  z ↦ z · (1 / (1 + exp(−z))) to x · W1 + b1 and then to that · W2 + b2, and the result entry is
  ns(n, j) + (x(n, j) + network(x(n, ·))(j)), where x is the update vector.
-/
import proofs.«107950_j44057774522738_2_alg».proof.Proof.RefRead
import proofs.«107950_j44057774522738_2_alg».proof.Proof.SpecR

noncomputable section

namespace Cert.ReferenceIdeal.RefValue

open Cert.ReferenceIdeal Cert.ReferenceIdeal.Gen Cert.ReferenceIdeal.ReadP Idealize.ShloMosaic Idealize.ShloMosaic.ValueIdx Cert.Spec

/-- The two-layer network of the update vector's row n, feature j. -/
theorem mlp_entry (x0 : (⟨S1000000x128, .f32⟩ : BufTy).Contents (Elt Ideal)) (x1 : (⟨S10000, .f32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 1000000) (j : Fin 128) :
    val_main_v57 (F := Ideal) x0 x1 x2 x3 x4 x5 x6 x7 x8 x9 x10 (ix2 n j)
      = mlpR (fun l => val_main_v47 (F := Ideal) x0 x1 x2 x3 x4 x5 x6 (ix2 n l)) x7 x8 x9 x10 j := by
  have l48 : ∀ (i : Fin 128) (k : Fin 128), lidx_main_v48 (ix2 n i) k = ix2 n k := fun i k => funext fun a => Fin.ext (by match a with | ⟨0, _⟩ => rfl | ⟨1, _⟩ => rfl)
  have r48 : ∀ (i : Fin 128) (k : Fin 128), ridx_main_v48 (ix2 n i) k = ix2 k i := fun i k => funext fun a => Fin.ext (by match a with | ⟨0, _⟩ => rfl | ⟨1, _⟩ => rfl)
  have l53 : ∀ (i : Fin 128) (k : Fin 128), lidx_main_v53 (ix2 n i) k = ix2 n k := fun i k => funext fun a => Fin.ext (by match a with | ⟨0, _⟩ => rfl | ⟨1, _⟩ => rfl)
  have r53 : ∀ (i : Fin 128) (k : Fin 128), ridx_main_v53 (ix2 n i) k = ix2 k i := fun i k => funext fun a => Fin.ext (by match a with | ⟨0, _⟩ => rfl | ⟨1, _⟩ => rfl)
  have e50 : ∀ i : Fin 128, idx_main_v49 (idx_main_v50 (ix2 n i)) = ix1 i := fun i => funext fun a => Fin.ext (by match a with | ⟨0, _⟩ => rfl)
  have e55 : ∀ i : Fin 128, idx_main_v54 (idx_main_v55 (ix2 n i)) = ix1 i := fun i => funext fun a => Fin.ext (by match a with | ⟨0, _⟩ => rfl)
  have h51 : ∀ k : Fin 128, val_main_v51 (F := Ideal) x0 x1 x2 x3 x4 x5 x6 x7 x8 (ix2 n k)
      = (∑ l : Fin 128, val_main_v47 (F := Ideal) x0 x1 x2 x3 x4 x5 x6 (ix2 n l) * x7 (ix2 l k)) + x8 (ix1 k) := by
    intro k
    rw [val_main_v51_apply, val_main_v48_apply, val_main_v50_apply, val_main_v49_apply, e50]
    simp only [l48, r48]
    rfl
  have h52 : ∀ k : Fin 128, val_main_v52 (F := Ideal) x0 x1 x2 x3 x4 x5 x6 x7 x8 (ix2 n k)
      = siluR (val_main_v51 (F := Ideal) x0 x1 x2 x3 x4 x5 x6 x7 x8 (ix2 n k)) := by
    intro k
    rw [val_main_v52_apply, val_main_call2_v5_apply, val_main_call2_v4_apply, val_main_call2_cst_0_apply,
      val_main_call2_v3_apply, val_main_call2_v2_apply, val_main_call2_cst_apply, val_main_call2_v1_apply,
      val_main_call2_v0_apply]
    generalize val_main_v51 (F := Ideal) x0 x1 x2 x3 x4 x5 x6 x7 x8 (ix2 n k) = z
    rfl
  have h56 : val_main_v56 (F := Ideal) x0 x1 x2 x3 x4 x5 x6 x7 x8 x9 x10 (ix2 n j)
      = (∑ k : Fin 128, siluR ((∑ l : Fin 128, val_main_v47 (F := Ideal) x0 x1 x2 x3 x4 x5 x6 (ix2 n l) * x7 (ix2 l k)) + x8 (ix1 k)) * x9 (ix2 k j)) + x10 (ix1 j) := by
    rw [val_main_v56_apply, val_main_v53_apply, val_main_v55_apply, val_main_v54_apply, e55]
    simp only [l53, r53, h52, h51]
    rfl
  have h57 : val_main_v57 (F := Ideal) x0 x1 x2 x3 x4 x5 x6 x7 x8 x9 x10 (ix2 n j)
      = siluR (val_main_v56 (F := Ideal) x0 x1 x2 x3 x4 x5 x6 x7 x8 x9 x10 (ix2 n j)) := by
    rw [val_main_v57_apply, val_main_call3_v5_apply, val_main_call3_v4_apply, val_main_call3_cst_0_apply,
      val_main_call3_v3_apply, val_main_call3_v2_apply, val_main_call3_cst_apply, val_main_call3_v1_apply,
      val_main_call3_v0_apply]
    generalize val_main_v56 (F := Ideal) x0 x1 x2 x3 x4 x5 x6 x7 x8 x9 x10 (ix2 n j) = z
    rfl
  rw [h57, h56]
  unfold mlpR
  rfl

/-- The result entry from the update vector. -/
theorem out_entry (x0 : (⟨S1000000x128, .f32⟩ : BufTy).Contents (Elt Ideal)) (x1 : (⟨S10000, .f32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 1000000) (j : Fin 128) :
    val_main_v59 (F := Ideal) x0 x1 x2 x3 x4 x5 x6 x7 x8 x9 x10 (ix2 n j)
      = x0 (ix2 n j) + (val_main_v47 (F := Ideal) x0 x1 x2 x3 x4 x5 x6 (ix2 n j)
          + mlpR (fun l => val_main_v47 (F := Ideal) x0 x1 x2 x3 x4 x5 x6 (ix2 n l)) x7 x8 x9 x10 j) := by
  rw [val_main_v59_apply, val_main_v58_apply, mlp_entry]
  rfl

end Cert.ReferenceIdeal.RefValue

end
-- ==== Proof.RefValue.lean ====
/-
  The reference program's result, entry by entry, is the specification's: the update vector x (the quotient of
  a(n) · v by the graph total) plus the two-layer network of x, added to the input.
-/
import proofs.«107950_j44057774522738_2_alg».proof.Proof.RefX
import proofs.«107950_j44057774522738_2_alg».proof.Proof.RefTail

noncomputable section

namespace Cert.ReferenceIdeal.RefValue

open Cert.ReferenceIdeal Cert.ReferenceIdeal.Gen Cert.ReferenceIdeal.ReadP Idealize.ShloMosaic Idealize.ShloMosaic.ValueIdx Cert.Spec

/-- THE REFERENCE'S RESULT, ENTRY BY ENTRY: with every batch word a graph number, entry (n, j) of the reference
    program's result is the specification's entry. -/
theorem ref_entry (x0 : (⟨S1000000x128, .f32⟩ : BufTy).Contents (Elt Ideal)) (x1 : (⟨S10000, .f32⟩ : BufTy).Contents (Elt Ideal)) (x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S2x128, .f32⟩ : BufTy).Contents (Elt Ideal)) (x6 : (⟨S2x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (hin : ∀ n : Fin 1000000, 0 ≤ (x2 (ix1 n)).toInt ∧ (x2 (ix1 n)).toInt < 10000) (n : Fin 1000000) (j : Fin 128) :
    val_main_v59 (F := Ideal) x0 x1 x2 x3 x4 x5 x6 x7 x8 x9 x10 (ix2 n j) = outR x0 x1 x2 x3 x4 x5 x6 x7 x8 x9 x10 n j := by
  have hx : ∀ l : Fin 128, val_main_v47 (F := Ideal) x0 x1 x2 x3 x4 x5 x6 (ix2 n l) = xR x0 x1 x2 x3 x4 x5 x6 n l :=
    fun l => x_entry x0 x1 x2 x3 x4 x5 x6 hin n l
  rw [out_entry]
  simp only [hx]
  rfl

end Cert.ReferenceIdeal.RefValue

end
-- ==== Proof.lean ====
/-
  The certificate: the kernel program (a gather of each node's charge, a pallas region computing per-node attention
  logits, a segment sum of the logits by batch word gathered back and divided, a second pallas region computing
  node features + r·v + a two-layer silu network of r·v) against the plain reference, over the extended reals.

  Frames: the two kernel programs' frames are the generated ones; the reference's is its run with the result dropped.
  Nothing was rewritten by the ideal pass, so `preserves` is trivial.
  Algebraic: on finite inputs whose batch words are graph numbers, both result arrays hold, entry by entry, the reference's
  spelling `Cert.Spec.outR` of the argument arrays: the reference by reading its run one operation at a time, the kernel
  by reading its two regions' write-backs and the host glue between them, and then the one law that joins the spellings:
  the graph total is a nonzero real, so (a / σ) · v = (a · v) / σ.
-/
import proofs.«107950_j44057774522738_2_alg».proof.Defs
import proofs.«107950_j44057774522738_2_alg».proof.Proof.Gen.Kernel
import proofs.«107950_j44057774522738_2_alg».proof.Proof.Gen.Kernel.Skeleton
import proofs.«107950_j44057774522738_2_alg».proof.Proof.Gen.Kernel.Launch
import proofs.«107950_j44057774522738_2_alg».proof.Proof.Gen.Kernel.Points
import proofs.«107950_j44057774522738_2_alg».proof.Proof.Gen.Kernel.Frame
import proofs.«107950_j44057774522738_2_alg».proof.Proof.Gen.KernelIdeal
import proofs.«107950_j44057774522738_2_alg».proof.Proof.Gen.KernelIdeal.Skeleton
import proofs.«107950_j44057774522738_2_alg».proof.Proof.Gen.KernelIdeal.Launch
import proofs.«107950_j44057774522738_2_alg».proof.Proof.Gen.KernelIdeal.Points
import proofs.«107950_j44057774522738_2_alg».proof.Proof.Gen.KernelIdeal.Frame
import proofs.«107950_j44057774522738_2_alg».proof.Proof.Gen.ReferenceIdeal
import proofs.«107950_j44057774522738_2_alg».proof.Proof.Gen.Pre_finite_inputs
import proofs.«107950_j44057774522738_2_alg».proof.Proof.PreFacts
import proofs.«107950_j44057774522738_2_alg».proof.Proof.KRun
import proofs.«107950_j44057774522738_2_alg».proof.Proof.KValue
import proofs.«107950_j44057774522738_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at `Cert.Spec.outR` of the (agreeing) argument arrays, entry by entry. -/
theorem algebraic : Cert.algebraic_KernelIdeal_ReferenceIdeal := by
  intro m ρ m' ρ' hpre hagree
  refine ⟨fun c => Cert.KernelIdeal.Gen.W4 m ρ c (Proc.devRef .tc Cert.KernelIdeal.main_v26),
    Cert.KernelIdeal.KRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h3, h4, h5, h2⟩ := Cert.PreFacts.facts_of_pre _ _ _ _ _ _ _ _ _ _ _ (hpre c)
  have ha := hagree c
  rw [Cert.ReferenceIdeal.ReadP.val_main_v59_eq, ha.1, ha.2.1, ha.2.2.1, ha.2.2.2.1, ha.2.2.2.2.1, ha.2.2.2.2.2.1,
    ha.2.2.2.2.2.2.1, ha.2.2.2.2.2.2.2.1, ha.2.2.2.2.2.2.2.2.1, ha.2.2.2.2.2.2.2.2.2.1, ha.2.2.2.2.2.2.2.2.2.2]
  funext i
  obtain ⟨n, j, rfl⟩ : ∃ (n : Fin 1000000) (j : Fin 128), i = ix2 n j := ⟨i 0, i 1, eq_ix2 i⟩
  rw [Cert.ReferenceIdeal.RefValue.ref_entry _ _ _ _ _ _ _ _ _ _ _ (fun n => h2 (ix1 n)) n j]
  exact (Cert.KernelIdeal.KValue.result_entry m ρ c h0 h1 h3 h4 h5 (fun n => h2 (ix1 n)) n j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
